-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v264)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v264) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x4x128x128 : Shape := ⟨4, ![2, 4, 128, 128]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : IVec S800000 32) (main_arg3 : FVec F S2x4x128x128 .f32) (main_arg4 : FVec F S2x128x128 .f32) (main_arg5 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x4x128x128 .f32 := Host.absf main_arg3
  let main_cst_0 : FVec F S_ .f32 := constant S_ .f32 0x7F800000#32
  let main_v5 : FVec F S2x4x128x128 .f32 := broadcastInDim S2x4x128x128 ![] bcast_S_S2x4x128x128 main_cst_0
  let main_v6 : IVec S2x4x128x128 1 := cmpf .olt main_v4 main_v5
  let main_c_1 : IVec S_ 1 := constantI S_ 1 1#1
  let main_v7 : IVec S_ 1 := (fun x v => Host.reduce IntOp.andi x v reducesTo_S2x4x128x128_S_d0_1_2_3 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x4x128x128 : Shape := ⟨4, ![2, 4, 128, 128]⟩
abbrev S2x128x128 : Shape := ⟨3, ![2, 128, 128]⟩
abbrev S2x128 : Shape := ⟨2, ![2, 128]⟩
abbrev S1x800000 : Shape := ⟨2, ![1, 800000]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x640 : Shape := ⟨2, ![128, 640]⟩
abbrev S50000x640 : Shape := ⟨2, ![50000, 640]⟩
abbrev S2000x128 : Shape := ⟨2, ![2000, 128]⟩
abbrev S2000x640 : Shape := ⟨2, ![2000, 640]⟩
abbrev S50000x512 : Shape := ⟨2, ![50000, 512]⟩
abbrev S50000x4x128 : Shape := ⟨3, ![50000, 4, 128]⟩
abbrev S50000x1x128 : Shape := ⟨3, ![50000, 1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 321
  | .vmem => 10
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S2x4x128x128, .f32⟩
  | 4 => ⟨S2x128x128, .f32⟩
  | 5 => ⟨S2x128, .f32⟩
  | 6 => ⟨S1x800000, .i32⟩
  | 7 => ⟨S800000, .i32⟩
  | 8 => ⟨S1x800000, .i32⟩
  | 9 => ⟨S800000, .i32⟩
  | 10 => ⟨S1x4x128x128, .f32⟩
  | 11 => ⟨S4x128x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128x128, .f32⟩
  | 19 => ⟨S128x128, .f32⟩
  | 20 => ⟨S1x128x128, .f32⟩
  | 21 => ⟨S128x128, .f32⟩
  | 22 => ⟨S1x128x128, .f32⟩
  | 23 => ⟨S128x128, .f32⟩
  | 24 => ⟨S128x640, .f32⟩
  | 25 => ⟨S50000x640, .f32⟩
  | 26 => ⟨S50000x512, .f32⟩
  | 27 => ⟨S50000x4x128, .f32⟩
  | 28 => ⟨S50000x128, .f32⟩
  | 29 => ⟨S1x128, .f32⟩
  | 30 => ⟨S50000x128, .f32⟩
  | 31 => ⟨S50000x128, .f32⟩
  | 32 => ⟨S50000x1x128, .f32⟩
  | 33 => ⟨S50000x128, .f32⟩
  | 34 => ⟨S_, .i32⟩
  | 35 => ⟨S800000, .i32⟩
  | 36 => ⟨S800000, .i1⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x1, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S50000x1x128, .f32⟩
  | 66 => ⟨S50000x128, .f32⟩
  | 67 => ⟨S_, .i32⟩
  | 68 => ⟨S800000, .i32⟩
  | 69 => ⟨S800000, .i1⟩
  | 70 => ⟨S800000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x1, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000, .f32⟩
  | 89 => ⟨S800000x1, .i32⟩
  | 90 => ⟨S50000, .f32⟩
  | 91 => ⟨S_, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S50000x128, .f32⟩
  | 98 => ⟨S50000x1x128, .f32⟩
  | 99 => ⟨S50000x128, .f32⟩
  | 100 => ⟨S_, .i32⟩
  | 101 => ⟨S800000, .i32⟩
  | 102 => ⟨S800000, .i1⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x1x128, .f32⟩
  | 4 => ⟨S50000x128, .f32⟩
  | 5 => ⟨S_, .i32⟩
  | 6 => ⟨S800000, .i32⟩
  | 7 => ⟨S800000, .i1⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x1, .f32⟩
  | 19 => ⟨S800000x128, .f32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x4x128x128, .f32⟩
  | 40 => ⟨S4x128x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x128x128, .f32⟩
  | 48 => ⟨S128x128, .f32⟩
  | 49 => ⟨S1x128x128, .f32⟩
  | 50 => ⟨S128x128, .f32⟩
  | 51 => ⟨S1x128x128, .f32⟩
  | 52 => ⟨S128x128, .f32⟩
  | 53 => ⟨S128x640, .f32⟩
  | 54 => ⟨S50000x640, .f32⟩
  | 55 => ⟨S50000x512, .f32⟩
  | 56 => ⟨S50000x4x128, .f32⟩
  | 57 => ⟨S50000x128, .f32⟩
  | 58 => ⟨S1x128, .f32⟩
  | 59 => ⟨S50000x128, .f32⟩
  | 60 => ⟨S50000x128, .f32⟩
  | 61 => ⟨S50000x1x128, .f32⟩
  | 62 => ⟨S50000x128, .f32⟩
  | 63 => ⟨S_, .i32⟩
  | 64 => ⟨S800000, .i32⟩
  | 65 => ⟨S800000, .i1⟩
  | 66 => ⟨S800000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x1, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000, .f32⟩
  | 85 => ⟨S800000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S50000x1x128, .f32⟩
  | 95 => ⟨S50000x128, .f32⟩
  | 96 => ⟨S_, .i32⟩
  | 97 => ⟨S800000, .i32⟩
  | 98 => ⟨S800000, .i1⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x1, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S50000x128, .f32⟩
  | 127 => ⟨S50000x1x128, .f32⟩
  | _ => ⟨S50000x128, .f32⟩

abbrev hbmTy0_2 (i : Nat) : BufTy := match i % 128 with
  | 0 => ⟨S50000x128, .f32⟩
  | 1 => ⟨S_, .i32⟩
  | 2 => ⟨S800000, .i32⟩
  | 3 => ⟨S800000, .i1⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S800000x1, .f32⟩
  | 15 => ⟨S800000x128, .f32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S50000x1x128, .f32⟩
  | 33 => ⟨S50000x128, .f32⟩
  | 34 => ⟨S_, .i32⟩
  | 35 => ⟨S800000, .i32⟩
  | 36 => ⟨S800000, .i1⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x1, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x640, .f32⟩
  | .local _ .vmem, ⟨3, _⟩ => ⟨S2000x640, .f32⟩
  | .local _ .vmem, ⟨4, _⟩ => ⟨S2000x640, .f32⟩
  | .local _ .vmem, ⟨5, _⟩ => ⟨S2000x128, .f32⟩
  | .local _ .vmem, ⟨6, _⟩ => ⟨S2000x128, .f32⟩
  | .local _ .vmem, ⟨7, _⟩ => ⟨S128x640, .f32⟩
  | .local _ .vmem, ⟨8, _⟩ => ⟨S2000x640, .f32⟩
  | .local _ .vmem, ⟨9, _⟩ => ⟨S2000x640, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_0 : Ref sig .tc := ⟨.hbm, 38, rfl⟩
abbrev main_v31 : Ref sig .tc := ⟨.hbm, 39, rfl⟩
abbrev main_v32 : Ref sig .tc := ⟨.hbm, 40, rfl⟩
abbrev main_c_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_5 : Ref sig .tc := ⟨.hbm, 71, rfl⟩
abbrev main_v58 : Ref sig .tc := ⟨.hbm, 72, rfl⟩
abbrev main_v59 : Ref sig .tc := ⟨.hbm, 73, rfl⟩
abbrev main_c_6 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c_11 : Ref sig .tc := ⟨.hbm, 104, rfl⟩
abbrev main_v85 : Ref sig .tc := ⟨.hbm, 105, rfl⟩
abbrev main_v86 : Ref sig .tc := ⟨.hbm, 106, rfl⟩
abbrev main_c_12 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_14 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_16 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_c_17 : Ref sig .tc := ⟨.hbm, 137, rfl⟩
abbrev main_v112 : Ref sig .tc := ⟨.hbm, 138, rfl⟩
abbrev main_v113 : Ref sig .tc := ⟨.hbm, 139, rfl⟩
abbrev main_c_18 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_19 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_20 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_21 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_call0_cst : Ref sig .tc := ⟨.hbm, 164, rfl⟩
abbrev main_call0_v0 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_c_22 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_c_23 : Ref sig .tc := ⟨.hbm, 195, rfl⟩
abbrev main_v162 : Ref sig .tc := ⟨.hbm, 196, rfl⟩
abbrev main_v163 : Ref sig .tc := ⟨.hbm, 197, rfl⟩
abbrev main_c_24 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_25 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_26 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_27 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_c_28 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_c_29 : Ref sig .tc := ⟨.hbm, 228, rfl⟩
abbrev main_v189 : Ref sig .tc := ⟨.hbm, 229, rfl⟩
abbrev main_v190 : Ref sig .tc := ⟨.hbm, 230, rfl⟩
abbrev main_c_30 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_cst_31 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_32 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_33 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_c_34 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_c_35 : Ref sig .tc := ⟨.hbm, 261, rfl⟩
abbrev main_v216 : Ref sig .tc := ⟨.hbm, 262, rfl⟩
abbrev main_v217 : Ref sig .tc := ⟨.hbm, 263, rfl⟩
abbrev main_c_36 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_cst_37 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_cst_38 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_cst_39 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_c_40 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_c_41 : Ref sig .tc := ⟨.hbm, 294, rfl⟩
abbrev main_v243 : Ref sig .tc := ⟨.hbm, 295, rfl⟩
abbrev main_v244 : Ref sig .tc := ⟨.hbm, 296, rfl⟩
abbrev main_c_42 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_cst_43 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_cst_44 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_45 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x4x128x128_S1x4x128x128_0_0_0_0 : S2x4x128x128.Slices ![0, 0, 0, 0] S1x4x128x128
  shapeCasts_S1x4x128x128_S4x128x128 : S1x4x128x128.ShapeCasts S4x128x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S4x128x128_S1x128x128_0_0_0 : S4x128x128.Slices ![0, 0, 0] S1x128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  concatenates_S128x128_S128x128_S128x128_S128x128_S128x128_S128x640_d1 : Shape.Concatenates [S128x128, S128x128, S128x128, S128x128, S128x128] S128x640 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x640_S128x640_0_0 : ∀ a, (![0, 0] : Fin 2 → Nat) a + S128x640.size a ≤ S128x640.size a
  h_S128x640 : 0 < S128x640.numel
  shapeCasts_S128x640_S128x640 : S128x640.ShapeCasts S128x640
  inb_S2000x640_S2000x640_0_0 : ∀ a, (![0, 0] : Fin 2 → Nat) a + S2000x640.size a ≤ S2000x640.size a
  h_S2000x640 : 0 < S2000x640.numel
  slices_S50000x640_S50000x512_0_0 : S50000x640.Slices ![0, 0] S50000x512
  shapeCasts_S50000x512_S50000x4x128 : S50000x512.ShapeCasts S50000x4x128
  slices_S50000x640_S50000x128_0_512 : S50000x640.Slices ![0, 512] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x4x128_S50000x1x128_0_0_0 : S50000x4x128.Slices ![0, 0, 0] S50000x1x128
  shapeCasts_S50000x1x128_S50000x128 : S50000x1x128.ShapeCasts S50000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x4x128_S50000x1x128_0_1_0 : S50000x4x128.Slices ![0, 1, 0] S50000x1x128
  slices_S50000x4x128_S50000x1x128_0_2_0 : S50000x4x128.Slices ![0, 2, 0] S50000x1x128
  slices_S50000x4x128_S50000x1x128_0_3_0 : S50000x4x128.Slices ![0, 3, 0] S50000x1x128
  slices_S2x4x128x128_S1x4x128x128_1_0_0_0 : S2x4x128x128.Slices ![1, 0, 0, 0] S1x4x128x128
  slices_S2x128x128_S1x128x128_1_0_0 : S2x128x128.Slices ![1, 0, 0] S1x128x128
  slices_S2x128_S1x128_1_0 : S2x128.Slices ![1, 0] S1x128
  shapeCasts_S2000x128_S2000x128 : S2000x128.ShapeCasts S2000x128
  dot_S2000x128_S128x640_S2000x640_1_0_0_1_n_n_wf : DotDims.WF S2000x128 S128x640 S2000x640 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x640.size a ≤ S128x640.size a
  hwx0_1 : ∀ i : grid0.Coords, EltTy.bits .f32 = 32 ∨ (Rect.block (s := S128x640) S128x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x640.size a ≤ S50000x640.size a
  hwx0_2 : ∀ i : grid0.Coords, EltTy.bits .f32 = 32 ∨ (Rect.block (s := S50000x640) S2000x640.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x640.size a ≤ S128x640.size a
  hwx1_1 : ∀ i : grid1.Coords, EltTy.bits .f32 = 32 ∨ (Rect.block (s := S128x640) S128x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x640.size a ≤ S50000x640.size a
  hwx1_2 : ∀ i : grid1.Coords, EltTy.bits .f32 = 32 ∨ (Rect.block (s := S50000x640) S2000x640.size (cc1_transform_2 i) (hinb1_2 i)).WholeWords (EltTy.packing .f32)

variable [Facts₀]

def dot_S2000x128_S128x640_S2000x640_1_0_0_1_n_n : DotDims S2000x128 S128x640 S2000x640 where
  lhsContracting := [1]
  rhsContracting := [0]
  lhsNonContracting := [0]
  rhsNonContracting := [1]
  lhsBatch := []
  rhsBatch := []
  wf := dot_S2000x128_S128x640_S2000x640_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v134) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v149) S128x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v150) S2000x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x4x128x128 : Shape := ⟨4, ![2, 4, 128, 128]⟩
abbrev S2x128x128 : Shape := ⟨3, ![2, 128, 128]⟩
abbrev S2x128 : Shape := ⟨2, ![2, 128]⟩
abbrev S1x800000 : Shape := ⟨2, ![1, 800000]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 305
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S2x4x128x128, .f32⟩
  | 4 => ⟨S2x128x128, .f32⟩
  | 5 => ⟨S2x128, .f32⟩
  | 6 => ⟨S1x800000, .i32⟩
  | 7 => ⟨S800000, .i32⟩
  | 8 => ⟨S1x800000, .i32⟩
  | 9 => ⟨S800000, .i32⟩
  | 10 => ⟨S1x4x128x128, .f32⟩
  | 11 => ⟨S4x128x128, .f32⟩
  | 12 => ⟨S1x128x128, .f32⟩
  | 13 => ⟨S128x128, .f32⟩
  | 14 => ⟨S1x128, .f32⟩
  | 15 => ⟨S128, .f32⟩
  | 16 => ⟨S50000x128, .f32⟩
  | 17 => ⟨S1x128, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S_, .i32⟩
  | 24 => ⟨S800000, .i32⟩
  | 25 => ⟨S800000, .i1⟩
  | 26 => ⟨S800000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x1, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S_, .i32⟩
  | 58 => ⟨S800000, .i32⟩
  | 59 => ⟨S800000, .i1⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S_, .i32⟩
  | 92 => ⟨S800000, .i32⟩
  | 93 => ⟨S800000, .i1⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S50000, .f32⟩
  | 113 => ⟨S800000x1, .i32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x1, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S1x4x128x128, .f32⟩
  | 32 => ⟨S4x128x128, .f32⟩
  | 33 => ⟨S1x128x128, .f32⟩
  | 34 => ⟨S128x128, .f32⟩
  | 35 => ⟨S1x128, .f32⟩
  | 36 => ⟨S128, .f32⟩
  | 37 => ⟨S50000x128, .f32⟩
  | 38 => ⟨S1x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S_, .i32⟩
  | 45 => ⟨S800000, .i32⟩
  | 46 => ⟨S800000, .i1⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S_, .i32⟩
  | 79 => ⟨S800000, .i32⟩
  | 80 => ⟨S800000, .i1⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x1, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S_, .i32⟩
  | 113 => ⟨S800000, .i32⟩
  | 114 => ⟨S800000, .i1⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x128, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x128, .f32⟩
  | 13 => ⟨S50000x128, .f32⟩
  | 14 => ⟨S50000x128, .f32⟩
  | 15 => ⟨S1x128x128, .f32⟩
  | 16 => ⟨S128x128, .f32⟩
  | 17 => ⟨S50000x128, .f32⟩
  | 18 => ⟨S_, .i32⟩
  | 19 => ⟨S800000, .i32⟩
  | 20 => ⟨S800000, .i1⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x1, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_11 : Ref sig .tc := ⟨.hbm, 95, rfl⟩
abbrev main_v76 : Ref sig .tc := ⟨.hbm, 96, rfl⟩
abbrev main_v77 : Ref sig .tc := ⟨.hbm, 97, rfl⟩
abbrev main_c_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_15 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_16 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_17 : Ref sig .tc := ⟨.hbm, 129, rfl⟩
abbrev main_v104 : Ref sig .tc := ⟨.hbm, 130, rfl⟩
abbrev main_v105 : Ref sig .tc := ⟨.hbm, 131, rfl⟩
abbrev main_c_18 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_19 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_20 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_21 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call0_cst : Ref sig .tc := ⟨.hbm, 156, rfl⟩
abbrev main_call0_v0 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_c_22 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_c_23 : Ref sig .tc := ⟨.hbm, 176, rfl⟩
abbrev main_v143 : Ref sig .tc := ⟨.hbm, 177, rfl⟩
abbrev main_v144 : Ref sig .tc := ⟨.hbm, 178, rfl⟩
abbrev main_c_24 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_25 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_26 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_27 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_c_28 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_c_29 : Ref sig .tc := ⟨.hbm, 210, rfl⟩
abbrev main_v171 : Ref sig .tc := ⟨.hbm, 211, rfl⟩
abbrev main_v172 : Ref sig .tc := ⟨.hbm, 212, rfl⟩
abbrev main_c_30 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_31 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_32 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_33 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_c_34 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_c_35 : Ref sig .tc := ⟨.hbm, 244, rfl⟩
abbrev main_v199 : Ref sig .tc := ⟨.hbm, 245, rfl⟩
abbrev main_v200 : Ref sig .tc := ⟨.hbm, 246, rfl⟩
abbrev main_c_36 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_cst_37 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_38 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_39 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_c_40 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_c_41 : Ref sig .tc := ⟨.hbm, 278, rfl⟩
abbrev main_v227 : Ref sig .tc := ⟨.hbm, 279, rfl⟩
abbrev main_v228 : Ref sig .tc := ⟨.hbm, 280, rfl⟩
abbrev main_c_42 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_43 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_cst_44 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_cst_45 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x4x128x128_S1x4x128x128_0_0_0_0 : S2x4x128x128.Slices ![0, 0, 0, 0] S1x4x128x128
  shapeCasts_S1x4x128x128_S4x128x128 : S1x4x128x128.ShapeCasts S4x128x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  slices_S2x4x128x128_S1x4x128x128_1_0_0_0 : S2x4x128x128.Slices ![1, 0, 0, 0] S1x4x128x128
  slices_S2x128x128_S1x128x128_1_0_0 : S2x128x128.Slices ![1, 0, 0] S1x128x128
  slices_S2x128_S1x128_1_0 : S2x128.Slices ![1, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.RegionI.lean ====
/-
  The two launches of the dense projection, each at the buffer contents `V` it is entered from.
  A launch walks 25 row blocks of 2000 rows.  At block `t` the body reads rows `2000 t … 2000 t + 1999` of the
  left operand (window 0) and the whole 128 × 640 weight matrix (window 1), and leaves in the output window's
  buffer (window 2) their matrix product, stored as one piece that covers the buffer.
  Stated for any float interpretation.
-/
import proofs.«174295_j50938312130617_1_alg».proof.Proof.Gen.KernelIdeal.Launch
import proofs.«174295_j50938312130617_1_alg».proof.Proof.Gen.KernelIdeal.Skeleton
import proofs.«174295_j50938312130617_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## First launch -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x640 := Rect.unit (s := S128x640) ![0, 0] S128x640.size inb_S128x640_S128x640_0_0
abbrev r0_2 : Rect S2000x640 := Rect.unit (s := S2000x640) ![0, 0] S2000x640.size inb_S2000x640_S2000x640_0_0

/-- The output window's buffer after the body: the product of the two loaded blocks, stored whole. -/
def out0_2 (x0 : Vec F S2000x128 .f32) (x1 : Vec F S128x640 .f32) : Vec F S2000x640 .f32 :=
  View.canon [⟨r0_2, k0_pay1 (View.ld x0 r0_0) (View.ld x1 r0_1)⟩]

/-- The one store covers the buffer. -/
theorem cover0_2 (p0 : Vec F S2000x640 .f32) (y : S2000x640.Idx) :
    ∃ pc ∈ ([⟨r0_2, p0⟩] : List (View.Piece (Elt F) S2000x640 .f32)), y ∈ pc.1.set :=
  View.cover_of_tiled [⟨r0_2, p0⟩] S2000x640.size (by rfl) y

/-- The first launch's proof data on core `c`: arrays as entered; the two inputs' buffers keep their blocks, the
    output's holds the product of the two blocks; nothing of the launch's own besides. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Second launch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's buffer after the second launch's body. -/
def out1_2 (x0 : Vec F S2000x128 .f32) (x1 : Vec F S128x640 .f32) : Vec F S2000x640 .f32 :=
  View.canon [⟨r0_2, k1_pay1 (View.ld x0 r0_0) (View.ld x1 r0_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.BodyI.lean ====
/-
  The body of each of the two launches of the dense projection, at any point of its grid.
  The body reads the left operand's row block and the weight matrix from their buffers, reads the output buffer
  (the value is not used), and stores the matrix product of the first two over the whole output buffer.  Both input
  buffers hold their window's block at every point: the row block is fetched at every point, the weight matrix once,
  at the first point, and its block never changes.  Stated for any float interpretation.
-/
import proofs.«174295_j50938312130617_1_alg».proof.Proof.RegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## First launch -/

/-- The left operand's current buffer holds its row block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: it is fetched at the first point only, its block
    index never moves afterwards, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers, the two inputs' at read contents `x0`, `x1` and the output's at anything: it reads the
    three buffers, stores the product of the first two reads over the whole output buffer, and returns with the inputs'
    buffers as they were and the output's holding that product. -/
theorem sound_kernel0 (c : Dev nD) (E : Set ℕ) (i : grid0.Coords)
    (arg1 : Memref sig .tc .vmem S2000x128 .f32) (harg1 : arg1.IsWhole)
    (arg2 : Memref sig .tc .vmem S128x640 .f32) (harg2 : arg2.IsWhole)
    (arg3 : Memref sig .tc .vmem S2000x640 .f32) (harg3 : arg3.IsWhole)
    (x0 : Vec F S2000x128 .f32) (x1 : Vec F S128x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every point. -/
theorem body_obligation0 (c : Dev nD) : BodyObligation (dat0 (F := F) V c) (defs₀ (F := F)) Variants.none () Set.univ := fun t => by
  rw [bigSep_W0, bigSep_W0]
  exact sound_body0 V c t

/-! ## Second launch -/

/-- The left operand's current buffer holds its row block at every point: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point: it is fetched at the first point only, its block
    index never moves afterwards, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole buffers, the two inputs' at read contents `x0`, `x1` and the output's at anything: it reads the
    three buffers, stores the product of the first two reads over the whole output buffer, and returns with the inputs'
    buffers as they were and the output's holding that product. -/
theorem sound_kernel1 (c : Dev nD) (E : Set ℕ) (i : grid1.Coords)
    (arg1 : Memref sig .tc .vmem S2000x128 .f32) (harg1 : arg1.IsWhole)
    (arg2 : Memref sig .tc .vmem S128x640 .f32) (harg2 : arg2.IsWhole)
    (arg3 : Memref sig .tc .vmem S2000x640 .f32) (harg3 : arg3.IsWhole)
    (x0 : Vec F S2000x128 .f32) (x1 : Vec F S128x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RegionB.lean ====
/-
  The two launches of the dense projection, each at the buffer contents `V` it is entered from.
  A launch walks 25 row blocks of 2000 rows.  At block `t` the body reads rows `2000 t … 2000 t + 1999` of the
  left operand (window 0) and the whole 128 × 640 weight matrix (window 1), and leaves in the output window's
  buffer (window 2) their matrix product, stored as one piece that covers the buffer.
  Stated for any float interpretation.
-/
import proofs.«174295_j50938312130617_1_alg».proof.Proof.Gen.Kernel.Launch
import proofs.«174295_j50938312130617_1_alg».proof.Proof.Gen.Kernel.Skeleton
import proofs.«174295_j50938312130617_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## First launch -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x640 := Rect.unit (s := S128x640) ![0, 0] S128x640.size inb_S128x640_S128x640_0_0
abbrev r0_2 : Rect S2000x640 := Rect.unit (s := S2000x640) ![0, 0] S2000x640.size inb_S2000x640_S2000x640_0_0

/-- The output window's buffer after the body: the product of the two loaded blocks, stored whole. -/
def out0_2 (x0 : Vec F S2000x128 .f32) (x1 : Vec F S128x640 .f32) : Vec F S2000x640 .f32 :=
  View.canon [⟨r0_2, k0_pay1 (View.ld x0 r0_0) (View.ld x1 r0_1)⟩]

/-- The one store covers the buffer. -/
theorem cover0_2 (p0 : Vec F S2000x640 .f32) (y : S2000x640.Idx) :
    ∃ pc ∈ ([⟨r0_2, p0⟩] : List (View.Piece (Elt F) S2000x640 .f32)), y ∈ pc.1.set :=
  View.cover_of_tiled [⟨r0_2, p0⟩] S2000x640.size (by rfl) y

/-- The first launch's proof data on core `c`: arrays as entered; the two inputs' buffers keep their blocks, the
    output's holds the product of the two blocks; nothing of the launch's own besides. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Second launch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's buffer after the second launch's body. -/
def out1_2 (x0 : Vec F S2000x128 .f32) (x1 : Vec F S128x640 .f32) : Vec F S2000x640 .f32 :=
  View.canon [⟨r0_2, k1_pay1 (View.ld x0 r0_0) (View.ld x1 r0_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.BodyB.lean ====
/-
  The body of each of the two launches of the dense projection, at any point of its grid.
  The body reads the left operand's row block and the weight matrix from their buffers, reads the output buffer
  (the value is not used), and stores the matrix product of the first two over the whole output buffer.  Both input
  buffers hold their window's block at every point: the row block is fetched at every point, the weight matrix once,
  at the first point, and its block never changes.  Stated for any float interpretation.
-/
import proofs.«174295_j50938312130617_1_alg».proof.Proof.RegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## First launch -/

/-- The left operand's current buffer holds its row block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: it is fetched at the first point only, its block
    index never moves afterwards, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers, the two inputs' at read contents `x0`, `x1` and the output's at anything: it reads the
    three buffers, stores the product of the first two reads over the whole output buffer, and returns with the inputs'
    buffers as they were and the output's holding that product. -/
theorem sound_kernel0 (c : Dev nD) (E : Set ℕ) (i : grid0.Coords)
    (arg1 : Memref sig .tc .vmem S2000x128 .f32) (harg1 : arg1.IsWhole)
    (arg2 : Memref sig .tc .vmem S128x640 .f32) (harg2 : arg2.IsWhole)
    (arg3 : Memref sig .tc .vmem S2000x640 .f32) (harg3 : arg3.IsWhole)
    (x0 : Vec F S2000x128 .f32) (x1 : Vec F S128x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every point. -/
theorem body_obligation0 (c : Dev nD) : BodyObligation (dat0 (F := F) V c) (defs₀ (F := F)) Variants.none () Set.univ := fun t => by
  rw [bigSep_W0, bigSep_W0]
  exact sound_body0 V c t

/-! ## Second launch -/

/-- The left operand's current buffer holds its row block at every point: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point: it is fetched at the first point only, its block
    index never moves afterwards, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole buffers, the two inputs' at read contents `x0`, `x1` and the output's at anything: it reads the
    three buffers, stores the product of the first two reads over the whole output buffer, and returns with the inputs'
    buffers as they were and the output's holding that product. -/
theorem sound_kernel1 (c : Dev nD) (E : Set ℕ) (i : grid1.Coords)
    (arg1 : Memref sig .tc .vmem S2000x128 .f32) (harg1 : arg1.IsWhole)
    (arg2 : Memref sig .tc .vmem S128x640 .f32) (harg2 : arg2.IsWhole)
    (arg3 : Memref sig .tc .vmem S2000x640 .f32) (harg3 : arg3.IsWhole)
    (x0 : Vec F S2000x128 .f32) (x1 : Vec F S128x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BoundsI.lean ====
/-
  The buffer contents of a core at each boundary of @main, as a fold from the launch memory:
  host operations, first launch, host operations (the first layer's aggregation, the rectifier, the second layer's
  weights), second launch, host operations (the second layer's aggregation).  A stretch of host operations
  updates the contents by its operations' fold; a launch replaces the contents of its three arrays by what its
  write-backs leave and keeps every other buffer.
-/
import proofs.«174295_j50938312130617_1_alg».proof.Proof.RegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first layer's aggregation. -/
abbrev W3 : Dev nD → Valuation τ sig (Elt F) := fun c => StableHlo.after hostOps1 (W2 m ρ c)
/-- After the rectifier. -/
abbrev W4 : Dev nD → Valuation τ sig (Elt F) := fun c => StableHlo.after hostOps1_1 (W3 m ρ c)
/-- After the second layer's weights are laid side by side (the second launch's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second layer's aggregation: the contents @main returns with. -/
abbrev W7 : Dev nD → Valuation τ sig (Elt F) := fun c => StableHlo.after hostOps2 (W6 m ρ c)

end Cert.KernelIdeal.Hand

end
-- ==== Proof.RunI.lean ====
/-
  The run of @main over its seven segments: host operations, the first launch, three stretches of host
  operations (the first layer's aggregation, the rectifier, the second layer's weights laid side by side),
  the second launch, host operations (the second layer's aggregation).  Between two segments a core holds
  every unscoped buffer at the boundary's contents (the fold of BoundsI), its generator register at some
  state, and owes nothing.  From any memory with zero counters every weakly fair execution terminates and
  ends with every unscoped buffer at the last boundary's contents.
-/
import proofs.«174295_j50938312130617_1_alg».proof.Proof.BoundsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no launch has a table. -/
abbrev adm : (p : Fin 2) → (pcfgs (F := F) p).Adm := fun p => (cfgs p).toPCfg_adm
/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
set_option maxHeartbeats 40000000 in
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The launches as segments

The two launches' body obligations are taken as given, at any entry contents. -/

variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The first launch over the thread state: entered from every unscoped buffer at `W1`, left at `W2`.
    Its three arrays are split out of the unscoped buffers and put back at the exit contents; the generator register
    goes into the launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W5`, left at `W6`.
    Its three arrays are split out of the unscoped buffers and put back at the exit contents; the generator register
    goes into the launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ hb1),
    .host (hseg hostOps2 hostOps2_sub hostOps2_fresh (W6 m ρ)) ]
/-- @main is the run of the segments. -/
theorem main_run (c : Dev nD) : main (F := F) c = Pipeline.Seg.run (segs m ρ hb0 hb1) := (main_chain c).trans (by chain_rfl)

/-! ## The run -/

/-- After the last stretch the thread state regroups: the buffers and the generator register on one side, the
    debts (none) on the other. -/
theorem last_link (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

include hb0 hb1 in
set_option backward.isDefEq.respectTransparency.types false in
/-- From any memory with zero counters every weakly fair execution of @main on the TensorCores terminates, nothing
    faulting, and every final state has every unscoped buffer at the last boundary's contents. -/
theorem run_main_aux : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Run

/-- The run of @main, the two launches' body obligations given: every weakly fair execution terminates, nothing
    faulting, and every final state has every unscoped buffer at the last boundary's contents. -/
theorem run_main {F : FTy → Type} [FloatOps F]
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  run_main_aux m ρ hb0 hb1

end Cert.KernelIdeal.Hand

end
-- ==== Proof.BoundsB.lean ====
/-
  The buffer contents of a core at each boundary of @main, as a fold from the launch memory:
  host operations, first launch, host operations (the first layer's aggregation, the rectifier, the second layer's
  weights), second launch, host operations (the second layer's aggregation).  A stretch of host operations
  updates the contents by its operations' fold; a launch replaces the contents of its three arrays by what its
  write-backs leave and keeps every other buffer.
-/
import proofs.«174295_j50938312130617_1_alg».proof.Proof.RegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first layer's aggregation. -/
abbrev W3 : Dev nD → Valuation τ sig (Elt F) := fun c => StableHlo.after hostOps1 (W2 m ρ c)
/-- After the rectifier. -/
abbrev W4 : Dev nD → Valuation τ sig (Elt F) := fun c => StableHlo.after hostOps1_1 (W3 m ρ c)
/-- After the second layer's weights are laid side by side (the second launch's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second layer's aggregation: the contents @main returns with. -/
abbrev W7 : Dev nD → Valuation τ sig (Elt F) := fun c => StableHlo.after hostOps2 (W6 m ρ c)

end Cert.Kernel.Hand

end
-- ==== Proof.RunB.lean ====
/-
  The run of @main over its seven segments: host operations, the first launch, three stretches of host
  operations (the first layer's aggregation, the rectifier, the second layer's weights laid side by side),
  the second launch, host operations (the second layer's aggregation).  Between two segments a core holds
  every unscoped buffer at the boundary's contents (the fold of BoundsB), its generator register at some
  state, and owes nothing.  From any memory with zero counters every weakly fair execution terminates and
  ends with every unscoped buffer at the last boundary's contents.
-/
import proofs.«174295_j50938312130617_1_alg».proof.Proof.BoundsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no launch has a table. -/
abbrev adm : (p : Fin 2) → (pcfgs (F := F) p).Adm := fun p => (cfgs p).toPCfg_adm
/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
set_option maxHeartbeats 40000000 in
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The launches as segments

The two launches' body obligations are taken as given, at any entry contents. -/

variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The first launch over the thread state: entered from every unscoped buffer at `W1`, left at `W2`.
    Its three arrays are split out of the unscoped buffers and put back at the exit contents; the generator register
    goes into the launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W5`, left at `W6`.
    Its three arrays are split out of the unscoped buffers and put back at the exit contents; the generator register
    goes into the launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ hb1),
    .host (hseg hostOps2 hostOps2_sub hostOps2_fresh (W6 m ρ)) ]
/-- @main is the run of the segments. -/
theorem main_run (c : Dev nD) : main (F := F) c = Pipeline.Seg.run (segs m ρ hb0 hb1) := (main_chain c).trans (by chain_rfl)

/-! ## The run -/

/-- After the last stretch the thread state regroups: the buffers and the generator register on one side, the
    debts (none) on the other. -/
theorem last_link (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

include hb0 hb1 in
set_option backward.isDefEq.respectTransparency.types false in
/-- From any memory with zero counters every weakly fair execution of @main on the TensorCores terminates, nothing
    faulting, and every final state has every unscoped buffer at the last boundary's contents. -/
theorem run_main_aux : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Run

/-- The run of @main, the two launches' body obligations given: every weakly fair execution terminates, nothing
    faulting, and every final state has every unscoped buffer at the last boundary's contents. -/
theorem run_main {F : FTy → Type} [FloatOps F]
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  run_main_aux m ρ hb0 hb1

end Cert.Kernel.Hand

end
-- ==== Proof.ArgsI.lean ====
/-
  The six arguments of @main end as launched.  A host operation writes its one result buffer, and no result
  buffer is an argument's; the first launch reads argument 0 through an input window, whose array its write-backs
  leave as found, and neither launch has any other argument among its arrays.  So the contents of an argument's
  buffer at the return walk back, boundary by boundary, to the launch memory.
-/
import proofs.«174295_j50938312130617_1_alg».proof.Proof.BoundsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The six argument arrays. -/
abbrev mainArgs : List (Ref sig .tc) := [main_arg0, main_arg1, main_arg2, main_arg3, main_arg4, main_arg5]

/-! ## A stretch of host operations keeps every argument's buffer, from any contents

Every operation of the stretch writes exactly its result buffer; that buffer differs from each of the six
arguments' (decided over the references). -/

/-- The first stretch (the first layer's weights laid side by side) writes no argument's buffer. -/
theorem hostOps0_keeps (W : Valuation τ sig (Elt F)) (r : Ref sig .tc) (hr : r ∈ mainArgs) :
    StableHlo.after hostOps0 W (Proc.devRef .tc r) = W (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

set_option maxHeartbeats 40000000 in
/-- The first layer's aggregation writes no argument's buffer. -/
theorem hostOps1_keeps (W : Valuation τ sig (Elt F)) (r : Ref sig .tc) (hr : r ∈ mainArgs) :
    StableHlo.after hostOps1 W (Proc.devRef .tc r) = W (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

/-- The rectifier writes no argument's buffer. -/
theorem hostOps1_1_keeps (W : Valuation τ sig (Elt F)) (r : Ref sig .tc) (hr : r ∈ mainArgs) :
    StableHlo.after hostOps1_1 W (Proc.devRef .tc r) = W (Proc.devRef .tc r) := by
  refine StableHlo.after_of_forall_not_mem (b := Proc.devRef .tc r) _ _ (List.forall_iff_forall_mem.mp ?_)
  simp only [hostOps1_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

/-- The stretch that lays the second layer's weights side by side writes no argument's buffer. -/
theorem hostOps1_2_keeps (W : Valuation τ sig (Elt F)) (r : Ref sig .tc) (hr : r ∈ mainArgs) :
    StableHlo.after hostOps1_2 W (Proc.devRef .tc r) = W (Proc.devRef .tc r) := by
  refine StableHlo.after_of_forall_not_mem (b := Proc.devRef .tc r) _ _ (List.forall_iff_forall_mem.mp ?_)
  simp only [hostOps1_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

set_option maxHeartbeats 40000000 in
/-- The second layer's aggregation writes no argument's buffer. -/
theorem hostOps2_keeps (W : Valuation τ sig (Elt F)) (r : Ref sig .tc) (hr : r ∈ mainArgs) :
    StableHlo.after hostOps2 W (Proc.devRef .tc r) = W (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

variable (m : (ℓ : Loc nD τ sig) → Buf (Elt F) ℓ) (ρ : Dev nD → PrngReg)

/-! ## The walk back from the return to the launch memory -/

/-- From the return back to the first launch's exit: three stretches of host operations and the second launch, none
    of which has an argument among what it writes. -/
theorem W7_arg_eq_W2 (c : Dev nD) (r : Ref sig .tc) (hr : r ∈ mainArgs) :
    W7 m ρ c (Proc.devRef .tc r) = W2 m ρ c (Proc.devRef .tc r) :=
  calc W7 m ρ c (Proc.devRef .tc r)
    _ = W6 m ρ c (Proc.devRef .tc r) := hostOps2_keeps _ r hr
    _ = W5 m ρ c (Proc.devRef .tc r) := W6_of_ne m ρ c r (by revert r; decide)
    _ = W4 m ρ c (Proc.devRef .tc r) := hostOps1_2_keeps _ r hr
    _ = W3 m ρ c (Proc.devRef .tc r) := hostOps1_1_keeps _ r hr
    _ = W2 m ρ c (Proc.devRef .tc r) := hostOps1_keeps _ r hr

/-- From the first launch's entry back to the launch memory: the first stretch. -/
theorem W1_arg (c : Dev nD) (r : Ref sig .tc) (hr : r ∈ mainArgs) :
    W1 m ρ c (Proc.devRef .tc r) = m ((c : Thread nD τ).loc r) :=
  (hostOps0_keeps _ r hr).trans rfl

/-! Through the first launch: argument 0 is its window 0, an input, whose array the launch leaves as it found it;
    every other argument is none of its arrays. -/

theorem W7_main_arg0 (c : Dev nD) : W7 m ρ c (Proc.devRef .tc main_arg0) = m ((c : Thread nD τ).loc main_arg0) :=
  calc W7 m ρ c (Proc.devRef .tc main_arg0)
    _ = W2 m ρ c (Proc.devRef .tc main_arg0) := W7_arg_eq_W2 m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg m ρ c main_arg0 (by decide)

theorem W7_main_arg1 (c : Dev nD) : W7 m ρ c (Proc.devRef .tc main_arg1) = m ((c : Thread nD τ).loc main_arg1) :=
  calc W7 m ρ c (Proc.devRef .tc main_arg1)
    _ = W2 m ρ c (Proc.devRef .tc main_arg1) := W7_arg_eq_W2 m ρ c main_arg1 (by decide)
    _ = W1 m ρ c (Proc.devRef .tc main_arg1) := W2_of_ne m ρ c main_arg1 (by decide)
    _ = m ((c : Thread nD τ).loc main_arg1) := W1_arg m ρ c main_arg1 (by decide)

theorem W7_main_arg2 (c : Dev nD) : W7 m ρ c (Proc.devRef .tc main_arg2) = m ((c : Thread nD τ).loc main_arg2) :=
  calc W7 m ρ c (Proc.devRef .tc main_arg2)
    _ = W2 m ρ c (Proc.devRef .tc main_arg2) := W7_arg_eq_W2 m ρ c main_arg2 (by decide)
    _ = W1 m ρ c (Proc.devRef .tc main_arg2) := W2_of_ne m ρ c main_arg2 (by decide)
    _ = m ((c : Thread nD τ).loc main_arg2) := W1_arg m ρ c main_arg2 (by decide)

theorem W7_main_arg3 (c : Dev nD) : W7 m ρ c (Proc.devRef .tc main_arg3) = m ((c : Thread nD τ).loc main_arg3) :=
  calc W7 m ρ c (Proc.devRef .tc main_arg3)
    _ = W2 m ρ c (Proc.devRef .tc main_arg3) := W7_arg_eq_W2 m ρ c main_arg3 (by decide)
    _ = W1 m ρ c (Proc.devRef .tc main_arg3) := W2_of_ne m ρ c main_arg3 (by decide)
    _ = m ((c : Thread nD τ).loc main_arg3) := W1_arg m ρ c main_arg3 (by decide)

theorem W7_main_arg4 (c : Dev nD) : W7 m ρ c (Proc.devRef .tc main_arg4) = m ((c : Thread nD τ).loc main_arg4) :=
  calc W7 m ρ c (Proc.devRef .tc main_arg4)
    _ = W2 m ρ c (Proc.devRef .tc main_arg4) := W7_arg_eq_W2 m ρ c main_arg4 (by decide)
    _ = W1 m ρ c (Proc.devRef .tc main_arg4) := W2_of_ne m ρ c main_arg4 (by decide)
    _ = m ((c : Thread nD τ).loc main_arg4) := W1_arg m ρ c main_arg4 (by decide)

theorem W7_main_arg5 (c : Dev nD) : W7 m ρ c (Proc.devRef .tc main_arg5) = m ((c : Thread nD τ).loc main_arg5) :=
  calc W7 m ρ c (Proc.devRef .tc main_arg5)
    _ = W2 m ρ c (Proc.devRef .tc main_arg5) := W7_arg_eq_W2 m ρ c main_arg5 (by decide)
    _ = W1 m ρ c (Proc.devRef .tc main_arg5) := W2_of_ne m ρ c main_arg5 (by decide)
    _ = m ((c : Thread nD τ).loc main_arg5) := W1_arg m ρ c main_arg5 (by decide)

end Cert.KernelIdeal.Hand

end
-- ==== Proof.ArgsB.lean ====
/-
  The six arguments of @main end as launched.  A host operation writes its one result buffer, and no result
  buffer is an argument's; the first launch reads argument 0 through an input window, whose array its write-backs
  leave as found, and neither launch has any other argument among its arrays.  So the contents of an argument's
  buffer at the return walk back, boundary by boundary, to the launch memory.
-/
import proofs.«174295_j50938312130617_1_alg».proof.Proof.BoundsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The six argument arrays. -/
abbrev mainArgs : List (Ref sig .tc) := [main_arg0, main_arg1, main_arg2, main_arg3, main_arg4, main_arg5]

/-! ## A stretch of host operations keeps every argument's buffer, from any contents

Every operation of the stretch writes exactly its result buffer; that buffer differs from each of the six
arguments' (decided over the references). -/

/-- The first stretch (the first layer's weights laid side by side) writes no argument's buffer. -/
theorem hostOps0_keeps (W : Valuation τ sig (Elt F)) (r : Ref sig .tc) (hr : r ∈ mainArgs) :
    StableHlo.after hostOps0 W (Proc.devRef .tc r) = W (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

set_option maxHeartbeats 40000000 in
/-- The first layer's aggregation writes no argument's buffer. -/
theorem hostOps1_keeps (W : Valuation τ sig (Elt F)) (r : Ref sig .tc) (hr : r ∈ mainArgs) :
    StableHlo.after hostOps1 W (Proc.devRef .tc r) = W (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

/-- The rectifier writes no argument's buffer. -/
theorem hostOps1_1_keeps (W : Valuation τ sig (Elt F)) (r : Ref sig .tc) (hr : r ∈ mainArgs) :
    StableHlo.after hostOps1_1 W (Proc.devRef .tc r) = W (Proc.devRef .tc r) := by
  refine StableHlo.after_of_forall_not_mem (b := Proc.devRef .tc r) _ _ (List.forall_iff_forall_mem.mp ?_)
  simp only [hostOps1_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

/-- The stretch that lays the second layer's weights side by side writes no argument's buffer. -/
theorem hostOps1_2_keeps (W : Valuation τ sig (Elt F)) (r : Ref sig .tc) (hr : r ∈ mainArgs) :
    StableHlo.after hostOps1_2 W (Proc.devRef .tc r) = W (Proc.devRef .tc r) := by
  refine StableHlo.after_of_forall_not_mem (b := Proc.devRef .tc r) _ _ (List.forall_iff_forall_mem.mp ?_)
  simp only [hostOps1_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

set_option maxHeartbeats 40000000 in
/-- The second layer's aggregation writes no argument's buffer. -/
theorem hostOps2_keeps (W : Valuation τ sig (Elt F)) (r : Ref sig .tc) (hr : r ∈ mainArgs) :
    StableHlo.after hostOps2 W (Proc.devRef .tc r) = W (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert r; decide)

variable (m : (ℓ : Loc nD τ sig) → Buf (Elt F) ℓ) (ρ : Dev nD → PrngReg)

/-! ## The walk back from the return to the launch memory -/

/-- From the return back to the first launch's exit: three stretches of host operations and the second launch, none
    of which has an argument among what it writes. -/
theorem W7_arg_eq_W2 (c : Dev nD) (r : Ref sig .tc) (hr : r ∈ mainArgs) :
    W7 m ρ c (Proc.devRef .tc r) = W2 m ρ c (Proc.devRef .tc r) :=
  calc W7 m ρ c (Proc.devRef .tc r)
    _ = W6 m ρ c (Proc.devRef .tc r) := hostOps2_keeps _ r hr
    _ = W5 m ρ c (Proc.devRef .tc r) := W6_of_ne m ρ c r (by revert r; decide)
    _ = W4 m ρ c (Proc.devRef .tc r) := hostOps1_2_keeps _ r hr
    _ = W3 m ρ c (Proc.devRef .tc r) := hostOps1_1_keeps _ r hr
    _ = W2 m ρ c (Proc.devRef .tc r) := hostOps1_keeps _ r hr

/-- From the first launch's entry back to the launch memory: the first stretch. -/
theorem W1_arg (c : Dev nD) (r : Ref sig .tc) (hr : r ∈ mainArgs) :
    W1 m ρ c (Proc.devRef .tc r) = m ((c : Thread nD τ).loc r) :=
  (hostOps0_keeps _ r hr).trans rfl

/-! Through the first launch: argument 0 is its window 0, an input, whose array the launch leaves as it found it;
    every other argument is none of its arrays. -/

theorem W7_main_arg0 (c : Dev nD) : W7 m ρ c (Proc.devRef .tc main_arg0) = m ((c : Thread nD τ).loc main_arg0) :=
  calc W7 m ρ c (Proc.devRef .tc main_arg0)
    _ = W2 m ρ c (Proc.devRef .tc main_arg0) := W7_arg_eq_W2 m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg m ρ c main_arg0 (by decide)

theorem W7_main_arg1 (c : Dev nD) : W7 m ρ c (Proc.devRef .tc main_arg1) = m ((c : Thread nD τ).loc main_arg1) :=
  calc W7 m ρ c (Proc.devRef .tc main_arg1)
    _ = W2 m ρ c (Proc.devRef .tc main_arg1) := W7_arg_eq_W2 m ρ c main_arg1 (by decide)
    _ = W1 m ρ c (Proc.devRef .tc main_arg1) := W2_of_ne m ρ c main_arg1 (by decide)
    _ = m ((c : Thread nD τ).loc main_arg1) := W1_arg m ρ c main_arg1 (by decide)

theorem W7_main_arg2 (c : Dev nD) : W7 m ρ c (Proc.devRef .tc main_arg2) = m ((c : Thread nD τ).loc main_arg2) :=
  calc W7 m ρ c (Proc.devRef .tc main_arg2)
    _ = W2 m ρ c (Proc.devRef .tc main_arg2) := W7_arg_eq_W2 m ρ c main_arg2 (by decide)
    _ = W1 m ρ c (Proc.devRef .tc main_arg2) := W2_of_ne m ρ c main_arg2 (by decide)
    _ = m ((c : Thread nD τ).loc main_arg2) := W1_arg m ρ c main_arg2 (by decide)

theorem W7_main_arg3 (c : Dev nD) : W7 m ρ c (Proc.devRef .tc main_arg3) = m ((c : Thread nD τ).loc main_arg3) :=
  calc W7 m ρ c (Proc.devRef .tc main_arg3)
    _ = W2 m ρ c (Proc.devRef .tc main_arg3) := W7_arg_eq_W2 m ρ c main_arg3 (by decide)
    _ = W1 m ρ c (Proc.devRef .tc main_arg3) := W2_of_ne m ρ c main_arg3 (by decide)
    _ = m ((c : Thread nD τ).loc main_arg3) := W1_arg m ρ c main_arg3 (by decide)

theorem W7_main_arg4 (c : Dev nD) : W7 m ρ c (Proc.devRef .tc main_arg4) = m ((c : Thread nD τ).loc main_arg4) :=
  calc W7 m ρ c (Proc.devRef .tc main_arg4)
    _ = W2 m ρ c (Proc.devRef .tc main_arg4) := W7_arg_eq_W2 m ρ c main_arg4 (by decide)
    _ = W1 m ρ c (Proc.devRef .tc main_arg4) := W2_of_ne m ρ c main_arg4 (by decide)
    _ = m ((c : Thread nD τ).loc main_arg4) := W1_arg m ρ c main_arg4 (by decide)

theorem W7_main_arg5 (c : Dev nD) : W7 m ρ c (Proc.devRef .tc main_arg5) = m ((c : Thread nD τ).loc main_arg5) :=
  calc W7 m ρ c (Proc.devRef .tc main_arg5)
    _ = W2 m ρ c (Proc.devRef .tc main_arg5) := W7_arg_eq_W2 m ρ c main_arg5 (by decide)
    _ = W1 m ρ c (Proc.devRef .tc main_arg5) := W2_of_ne m ρ c main_arg5 (by decide)
    _ = m ((c : Thread nD τ).loc main_arg5) := W1_arg m ρ c main_arg5 (by decide)

end Cert.Kernel.Hand

end
-- ==== Proof.RefFrame.lean ====
/-
  The reference program is host operations only: its run ends with every result at the composed term of the
  argument arrays and the arguments as launched.  Dropping the result gives its frame.
-/
import proofs.«174295_j50938312130617_1_alg».proof.Defs
import proofs.«174295_j50938312130617_1_alg».proof.Proof.Gen.ReferenceIdeal.Run

noncomputable section

namespace Cert.Proof.RefFrame

open Idealize.ShloMosaic Idealize.SL.Sem

/-- The reference terminates, faults nowhere and leaves its six argument arrays as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Columns.lean ====
/-
  Column groups of a wide matrix.  A matrix with 640 columns is read as five groups of 128 columns.
  * Slicing the columns `off … off + n − 1` reads entry `(i, c)` at column `off + c`.
  * Taking the first 512 columns, regrouping them as `[rows, 4, 128]`, picking group `r` and flattening back reads
    entry `(i, c)` at column `128 r + c`.
  * Five `[128, 128]` matrices laid side by side read, at column `128 n + c`, the `n`-th matrix at column `c`.
  Hence a product with the side-by-side matrix, cut back into groups, is the five products taken one at a time:
  entry `(i, 128 n + c)` of `x · [w₀ | w₁ | w₂ | w₃ | w₄]` is `Σ_k x[i, k] · wₙ[k, c]`.
-/
import Idealize.ShloMosaic.Lib.Pipeline.Value
import Idealize.ShloMosaic.Lib.ValueIdx
import Idealize.ShloMosaic.PureOps.Ideal.Laws

noncomputable section

open scoped BigOperators

namespace Cert.Rgcn

open Idealize.ShloMosaic Idealize.ShloMosaic.ValueIdx

variable {α : Type}

/-- A slice of columns `off … off + n − 1` (all rows) at entry `(i, c)` is the matrix at `(i, off + c)`. -/
theorem slice_cols_apply {M Nw Nn : Nat} (off : Nat) (y : (⟨2, ![M, Nw]⟩ : Shape).Idx → α)
    (h : (⟨2, ![M, Nw]⟩ : Shape).Slices ![0, off] ⟨2, ![M, Nn]⟩) (i : Fin M) (c : Fin Nn) (hc : off + c.val < Nw) :
    extractStridedSlice ⟨2, ![M, Nn]⟩ ![0, off] y h (ix2 i c) = y (ix2 i ⟨off + c.val, hc⟩) := by
  refine extractStridedSlice_apply _ y h _ _ (fun a => ?_)
  match a with
  | ⟨0, _⟩ => exact (Nat.zero_add _).symm
  | ⟨1, _⟩ => rfl

/-- The first `4 · C` columns regrouped as `[M, 4, C]`, group `r` picked and flattened back to `[M, C]`:
    entry `(i, c)` is the matrix at `(i, C r + c)`. -/
theorem group_cols_apply {M Nw C : Nat} (r : Nat) (hr : r < 4) (y : (⟨2, ![M, Nw]⟩ : Shape).Idx → α)
    (h1 : (⟨2, ![M, Nw]⟩ : Shape).Slices ![0, 0] ⟨2, ![M, 4 * C]⟩)
    (h2 : (⟨2, ![M, 4 * C]⟩ : Shape).ShapeCasts ⟨3, ![M, 4, C]⟩)
    (h3 : (⟨3, ![M, 4, C]⟩ : Shape).Slices ![0, r, 0] ⟨3, ![M, 1, C]⟩)
    (h4 : (⟨3, ![M, 1, C]⟩ : Shape).ShapeCasts ⟨2, ![M, C]⟩)
    (i : Fin M) (c : Fin C) (hc : C * r + c.val < Nw) :
    shapeCast ⟨2, ![M, C]⟩ (extractStridedSlice ⟨3, ![M, 1, C]⟩ ![0, r, 0]
        (shapeCast ⟨3, ![M, 4, C]⟩ (extractStridedSlice ⟨2, ![M, 4 * C]⟩ ![0, 0] y h1) h2) h3) h4 (ix2 i c)
      = y (ix2 i ⟨C * r + c.val, hc⟩) := by
  have hcr : C * r + c.val < 4 * C := by
    have := c.isLt
    nlinarith
  rw [shapeCast_apply _ h4 (ix2 i c) (ix3 i (0 : Fin 1) c) (by
        rw [Shape.rowMajor_val_three, Shape.rowMajor_val_two]
        show ((i.val * 1 + 0) * C + c.val) = i.val * C + c.val
        rw [Nat.mul_one, Nat.add_zero])]
  rw [extractStridedSlice_apply _ _ h3 (ix3 i (0 : Fin 1) c) (ix3 i (⟨r, hr⟩ : Fin 4) c) (fun a => by
        match a with
        | ⟨0, _⟩ => exact (Nat.zero_add _).symm
        | ⟨1, _⟩ => rfl
        | ⟨2, _⟩ => exact (Nat.zero_add _).symm)]
  rw [shapeCast_apply _ h2 (ix3 i (⟨r, hr⟩ : Fin 4) c) (ix2 i (⟨C * r + c.val, hcr⟩ : Fin (4 * C))) (by
        rw [Shape.rowMajor_val_three, Shape.rowMajor_val_two]
        show i.val * (4 * C) + (C * r + c.val) = (i.val * 4 + r) * C + c.val
        ring)]
  exact (extractStridedSlice_apply _ y h1 _ (ix2 i ⟨C * r + c.val, hc⟩) (fun a => by
        match a with
        | ⟨0, _⟩ => exact (Nat.zero_add _).symm
        | ⟨1, _⟩ => exact (Nat.zero_add _).symm))

/-- Five `[128, 128]` matrices laid side by side along the columns: at column `128 n + c` the `n`-th matrix at column `c`. -/
theorem side_by_side_apply (w : Fin 5 → ((⟨2, ![128, 128]⟩ : Shape).Idx → α))
    (h : Shape.Concatenates (([⟨⟨2, ![128, 128]⟩, w 0⟩, ⟨⟨2, ![128, 128]⟩, w 1⟩, ⟨⟨2, ![128, 128]⟩, w 2⟩, ⟨⟨2, ![128, 128]⟩, w 3⟩,
        ⟨⟨2, ![128, 128]⟩, w 4⟩] : List ((s : Shape) × (s.Idx → α))).map (·.1)) ⟨2, ![128, 640]⟩ 1)
    (n : Fin 5) (k : Fin 128) (c : Fin 128) (hc : 128 * n.val + c.val < 640) :
    concatenate ⟨2, ![128, 640]⟩ 1 [⟨⟨2, ![128, 128]⟩, w 0⟩, ⟨⟨2, ![128, 128]⟩, w 1⟩, ⟨⟨2, ![128, 128]⟩, w 2⟩,
        ⟨⟨2, ![128, 128]⟩, w 3⟩, ⟨⟨2, ![128, 128]⟩, w 4⟩] h (ix2 k ⟨128 * n.val + c.val, hc⟩) = w n (ix2 k c) := by
  have key : ∀ (m : Nat) (hm : m < 5), n = ⟨m, hm⟩ →
      concatenate ⟨2, ![128, 640]⟩ 1 [⟨⟨2, ![128, 128]⟩, w 0⟩, ⟨⟨2, ![128, 128]⟩, w 1⟩, ⟨⟨2, ![128, 128]⟩, w 2⟩,
        ⟨⟨2, ![128, 128]⟩, w 3⟩, ⟨⟨2, ![128, 128]⟩, w 4⟩] h (ix2 k ⟨128 * n.val + c.val, hc⟩) = w n (ix2 k c) := by
    intro m hm e
    subst e
    refine concatenate_apply_piece (1 : Fin 2)
      ([⟨⟨2, ![128, 128]⟩, w 0⟩, ⟨⟨2, ![128, 128]⟩, w 1⟩, ⟨⟨2, ![128, 128]⟩, w 2⟩, ⟨⟨2, ![128, 128]⟩, w 3⟩,
        ⟨⟨2, ![128, 128]⟩, w 4⟩] : List ((s : Shape) × (s.Idx → α))) h (ix2 k ⟨128 * m + c.val, hc⟩) m (show m < 5 from hm)
      ⟨2, ![128, 128]⟩ (w ⟨m, hm⟩) ?_ rfl (128 * m) ?_ (ix2 k c) (fun b hb => ?_) ?_
    · match m, hm with
      | 0, _ => rfl
      | 1, _ => rfl
      | 2, _ => rfl
      | 3, _ => rfl
      | 4, _ => rfl
    · match m, hm with
      | 0, _ => rfl
      | 1, _ => rfl
      | 2, _ => rfl
      | 3, _ => rfl
      | 4, _ => rfl
    · match b with
      | ⟨0, _⟩ => rfl
      | ⟨1, _⟩ => exact absurd rfl hb
    · rfl
  exact key n.val n.isLt rfl

/-! ## The product with the side-by-side matrix -/

/-- The product `x · w` of a `[50000, 128]` and a `[128, 640]` array over the extended reals, entry by entry. -/
def MM (x : FVec Ideal ⟨2, ![50000, 128]⟩ .f32) (w : FVec Ideal ⟨2, ![128, 640]⟩ .f32) : FVec Ideal ⟨2, ![50000, 640]⟩ .f32 :=
  fun j => ∑ k : Fin 128, x (ix2 (⟨(j 0).val, idx2_lt0 j⟩ : Fin 50000) k) * w (ix2 k (⟨(j 1).val, idx2_lt1 j⟩ : Fin 640))

theorem MM_apply (x : FVec Ideal ⟨2, ![50000, 128]⟩ .f32) (w : FVec Ideal ⟨2, ![128, 640]⟩ .f32) (i : Fin 50000) (q : Fin 640) :
    MM x w (ix2 i q) = ∑ k : Fin 128, x (ix2 i k) * w (ix2 k q) := rfl

end Cert.Rgcn

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.Product.lean ====
/-
  What a launch leaves in its result array, over the extended reals: the 25 write-backs, one row block of 2000 rows
  each, are the row blocks of ONE array — the matrix product of the left operand array and the weight array as the
  launch found them.  Entry `(2000 t + p, q)` is written at point `t` from row `p` of the left operand's block `t`
  and column `q` of the weights: `Σ_k x[2000 t + p, k] · w[k, q]`.
-/
import proofs.«174295_j50938312130617_1_alg».proof.Proof.RegionI
import proofs.«174295_j50938312130617_1_alg».proof.Proof.Columns
import proofs.«174295_j50938312130617_1_alg».proof.Proof.LibMatmulEntry
import Idealize.ShloMosaic.Lib.Pipeline.Value

set_option maxRecDepth 16384

noncomputable section

open scoped BigOperators

namespace Cert.KernelIdeal.Hand

open Cert.KernelIdeal Cert.KernelIdeal.Gen Cert.Rgcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The body's stored value at entry `(p, q)` of a block: the row-`p` by column-`q` sum over the 128 contracted lanes
    (the two narrowing casts and the cast of the weights to their own shape change no value). -/
theorem pay0_apply (x0 : Vec Ideal S2000x128 .f32) (x1 : Vec Ideal S128x640 .f32) (p : Fin 2000) (q : Fin 640) :
    k0_pay1 (F := Ideal) x0 x1 (ix2 p q) = ∑ k : Fin 128, x0 (ix2 p k) * x1 (ix2 k q) := by
  unfold k0_pay1
  refine (Ideal.matmul_rows_cols dot_S2000x128_S128x640_S2000x640_1_0_0_1_n_n rfl rfl rfl rfl rfl rfl none _ _ p q).trans ?_
  refine Finset.sum_congr rfl fun k _ => ?_
  simp only [truncf_apply, shapeCast_self]

/-- The windows' block indices over the grid: the left operand's and the result's row block is the point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch finds them. -/
theorem flushed0_eq (c : Dev nD) (t : Fin cfg0.N) :
    (dat0 V c).flushed 2 t = ((cfg0.win 2).blk t).view.read (Elt Ideal) (MM (V c main_arg0) (V c main_v18)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x640) hz]
  obtain ⟨e0, e1, e2, e3, e4, e5⟩ := idx_facts0 t
  have ht : t.val < 25 := by have h25 : cfg0.N = 25 := N_0; have := t.isLt; omega
  funext j
  obtain ⟨p, q, rfl⟩ : ∃ (p : Fin 2000) (q : Fin 640), j = ix2 p q := ⟨j 0, j 1, eq_ix2 j⟩
  show k0_pay1 (iblk0 V c 0 t) (iblk0 V c 1 t) (ix2 p q) = MM (V c main_arg0) (V c main_v18) (((cfg0.win 2).blk t).view.emb (ix2 p q))
  refine (pay0_apply _ _ p q).trans ?_
  have hrow : t.val * 2000 + p.val < 50000 := by have := p.isLt; omega
  have hemb : ((cfg0.win 2).blk t).view.emb (ix2 p q) = ix2 (⟨t.val * 2000 + p.val, hrow⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 640 + 1 * q.val = q.val; omega
  rw [hemb, MM_apply]
  refine Finset.sum_congr rfl fun k _ => ?_
  have h0 : ((cfg0.win 0).blk t).view.emb (ix2 p k) = ix2 (⟨t.val * 2000 + p.val, hrow⟩ : Fin 50000) k := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 640 + 1 * q.val = q.val; omega
  refine congrArg₂ (· * ·) ?_ ?_
  · show V c main_arg0 (((cfg0.win 0).blk t).view.emb (ix2 p k)) = _
    rw [h0]
  · show V c main_v18 (((cfg0.win 1).blk t).view.emb (ix2 k q)) = _
    rw [h1]

/-- An entry of the result array lies in point `t`'s block iff its row is among the block's 2000 rows. -/
theorem mem_blk0 (t : Fin cfg0.N) (i : S50000x640.Idx) :
    i ∈ ((cfg0.win 2).blk t).view.set ↔ ∀ a : Fin 2, win0_2.index t a * S2000x640.size a ≤ (i a).val ∧ (i a).val < win0_2.index t a * S2000x640.size a + S2000x640.size a := by
  show i ∈ ((View.whole main_v19).slice (win0_2.rect t)).set ↔ _
  rw [View.set_slice_whole, Rect.mem_set_unit]
  exact Iff.rfl

/-- The 25 row blocks tile the result array: row `r` lies in block `r / 2000`. -/
theorem cover0 (i : S50000x640.Idx) : ∃ t : Fin cfg0.N, (cfg0.win 2).flush t = true ∧ i ∈ ((cfg0.win 2).blk t).view.set := by
  have hi0 : (i 0).val < 50000 := (i 0).isLt
  have hi1 : (i 1).val < 640 := (i 1).isLt
  have hN : cfg0.N = 25 := N_0
  refine ⟨⟨(i 0).val / 2000, by rw [hN]; omega⟩, flush0_2 _, ?_⟩
  rw [mem_blk0]
  obtain ⟨e0, e1, e2, e3, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 640 ≤ (i 1).val ∧ (i 1).val < win0_2.index _ (1 : Fin 2) * 640 + 640
    rw [e5]; omega

/-- The result array after the launch is the product of the two operand arrays as the launch found them. -/
theorem product0 (c : Dev nD) : (dat0 V c).arrAt 2 cfg0.N = MM (V c main_arg0) (V c main_v18) :=
  (dat0 V c).arrAt_eq_of_cover 2 (MM (V c main_arg0) (V c main_v18)) (fun t _ => flushed0_eq V c t) (cover0)

/-! ## Launch 1 -/

/-- The body's stored value at entry `(p, q)` of a block: the row-`p` by column-`q` sum over the 128 contracted lanes
    (the two narrowing casts and the cast of the weights to their own shape change no value). -/
theorem pay1_apply (x0 : Vec Ideal S2000x128 .f32) (x1 : Vec Ideal S128x640 .f32) (p : Fin 2000) (q : Fin 640) :
    k1_pay1 (F := Ideal) x0 x1 (ix2 p q) = ∑ k : Fin 128, x0 (ix2 p k) * x1 (ix2 k q) := by
  unfold k1_pay1
  refine (Ideal.matmul_rows_cols dot_S2000x128_S128x640_S2000x640_1_0_0_1_n_n rfl rfl rfl rfl rfl rfl none _ _ p q).trans ?_
  refine Finset.sum_congr rfl fun k _ => ?_
  simp only [truncf_apply, shapeCast_self]

/-- The windows' block indices over the grid: the left operand's and the result's row block is the point, every other
    block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the launch finds them. -/
theorem flushed1_eq (c : Dev nD) (t : Fin cfg1.N) :
    (dat1 V c).flushed 2 t = ((cfg1.win 2).blk t).view.read (Elt Ideal) (MM (V c main_v134) (V c main_v149)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x640) hz]
  obtain ⟨e0, e1, e2, e3, e4, e5⟩ := idx_facts1 t
  have ht : t.val < 25 := by have h25 : cfg1.N = 25 := N_1; have := t.isLt; omega
  funext j
  obtain ⟨p, q, rfl⟩ : ∃ (p : Fin 2000) (q : Fin 640), j = ix2 p q := ⟨j 0, j 1, eq_ix2 j⟩
  show k1_pay1 (iblk1 V c 0 t) (iblk1 V c 1 t) (ix2 p q) = MM (V c main_v134) (V c main_v149) (((cfg1.win 2).blk t).view.emb (ix2 p q))
  refine (pay1_apply _ _ p q).trans ?_
  have hrow : t.val * 2000 + p.val < 50000 := by have := p.isLt; omega
  have hemb : ((cfg1.win 2).blk t).view.emb (ix2 p q) = ix2 (⟨t.val * 2000 + p.val, hrow⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 640 + 1 * q.val = q.val; omega
  rw [hemb, MM_apply]
  refine Finset.sum_congr rfl fun k _ => ?_
  have h0 : ((cfg1.win 0).blk t).view.emb (ix2 p k) = ix2 (⟨t.val * 2000 + p.val, hrow⟩ : Fin 50000) k := by
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 640 + 1 * q.val = q.val; omega
  refine congrArg₂ (· * ·) ?_ ?_
  · show V c main_v134 (((cfg1.win 0).blk t).view.emb (ix2 p k)) = _
    rw [h0]
  · show V c main_v149 (((cfg1.win 1).blk t).view.emb (ix2 k q)) = _
    rw [h1]

/-- An entry of the result array lies in point `t`'s block iff its row is among the block's 2000 rows. -/
theorem mem_blk1 (t : Fin cfg1.N) (i : S50000x640.Idx) :
    i ∈ ((cfg1.win 2).blk t).view.set ↔ ∀ a : Fin 2, win1_2.index t a * S2000x640.size a ≤ (i a).val ∧ (i a).val < win1_2.index t a * S2000x640.size a + S2000x640.size a := by
  show i ∈ ((View.whole main_v150).slice (win1_2.rect t)).set ↔ _
  rw [View.set_slice_whole, Rect.mem_set_unit]
  exact Iff.rfl

/-- The 25 row blocks tile the result array: row `r` lies in block `r / 2000`. -/
theorem cover1 (i : S50000x640.Idx) : ∃ t : Fin cfg1.N, (cfg1.win 2).flush t = true ∧ i ∈ ((cfg1.win 2).blk t).view.set := by
  have hi0 : (i 0).val < 50000 := (i 0).isLt
  have hi1 : (i 1).val < 640 := (i 1).isLt
  have hN : cfg1.N = 25 := N_1
  refine ⟨⟨(i 0).val / 2000, by rw [hN]; omega⟩, flush1_2 _, ?_⟩
  rw [mem_blk1]
  obtain ⟨e0, e1, e2, e3, e4, e5⟩ := idx_facts1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 640 ≤ (i 1).val ∧ (i 1).val < win1_2.index _ (1 : Fin 2) * 640 + 640
    rw [e5]; omega

/-- The result array after the launch is the product of the two operand arrays as the launch found them. -/
theorem product1 (c : Dev nD) : (dat1 V c).arrAt 2 cfg1.N = MM (V c main_v134) (V c main_v149) :=
  (dat1 V c).arrAt_eq_of_cover 2 (MM (V c main_v134) (V c main_v149)) (fun t _ => flushed1_eq V c t) (cover1)

end Cert.KernelIdeal.Hand

end
-- ==== Proof.Tail.lean ====
import proofs.«174295_j50938312130617_1_alg».proof.KernelIdeal

/-!
# The shared tail of the relational graph convolution

Both programs compute, per layer, five projections of the node features (one per relation and one
for the root weight) and then run the same aggregation on them: per relation a gather of the
projected rows along the edge sources, a mask by the edge type, a scatter-add along the edge
targets, and a division by the (clamped) in-degree for that relation; the results and the broadcast
bias are summed onto the root projection.

This file NAMES those host operations, each as the printed operations composed in the printed
order, so that the two programs can be compared at the five projections without ever opening the
aggregation.  Definitions only.
-/

noncomputable section

namespace Cert.Rgcn

open Cert.KernelIdeal Idealize.ShloMosaic
open Cert.KernelIdeal.Facts₀

variable {F : FTy → Type} [FloatOps F] [Facts]

/-- The contents of a buffer of shape `S` and element type `e`. -/
local notation "T[" S ", " e "]" => BufTy.Contents (Elt F) (BufTy.mk S e)

/-! ## The edge lists and the per-layer parameters -/

/-- The edge sources: row 0 of the edge index. -/
def srcOf (ei : T[S2x800000, .i32]) : T[S800000, .i32] :=
  shapeCast S800000 (extractStridedSlice S1x800000 ![0, 0] ei slices_S2x800000_S1x800000_0_0)
    shapeCasts_S1x800000_S800000

/-- The edge targets: row 1 of the edge index. -/
def dstOf (ei : T[S2x800000, .i32]) : T[S800000, .i32] :=
  shapeCast S800000 (extractStridedSlice S1x800000 ![1, 0] ei slices_S2x800000_S1x800000_1_0)
    shapeCasts_S1x800000_S800000

/-- The first layer's four relation weights. -/
def lay0 (w : T[S2x4x128x128, .f32]) : T[S4x128x128, .f32] :=
  shapeCast S4x128x128
    (extractStridedSlice S1x4x128x128 ![0, 0, 0, 0] w slices_S2x4x128x128_S1x4x128x128_0_0_0_0)
    shapeCasts_S1x4x128x128_S4x128x128

/-- The second layer's four relation weights. -/
def lay1 (w : T[S2x4x128x128, .f32]) : T[S4x128x128, .f32] :=
  shapeCast S4x128x128
    (extractStridedSlice S1x4x128x128 ![1, 0, 0, 0] w slices_S2x4x128x128_S1x4x128x128_1_0_0_0)
    shapeCasts_S1x4x128x128_S4x128x128

/-- Relation 0's weight of a layer. -/
def rel0 (w4 : T[S4x128x128, .f32]) : T[S128x128, .f32] :=
  shapeCast S128x128 (extractStridedSlice S1x128x128 ![0, 0, 0] w4 slices_S4x128x128_S1x128x128_0_0_0)
    shapeCasts_S1x128x128_S128x128

/-- Relation 1's weight of a layer. -/
def rel1 (w4 : T[S4x128x128, .f32]) : T[S128x128, .f32] :=
  shapeCast S128x128 (extractStridedSlice S1x128x128 ![1, 0, 0] w4 slices_S4x128x128_S1x128x128_1_0_0)
    shapeCasts_S1x128x128_S128x128

/-- Relation 2's weight of a layer. -/
def rel2 (w4 : T[S4x128x128, .f32]) : T[S128x128, .f32] :=
  shapeCast S128x128 (extractStridedSlice S1x128x128 ![2, 0, 0] w4 slices_S4x128x128_S1x128x128_2_0_0)
    shapeCasts_S1x128x128_S128x128

/-- Relation 3's weight of a layer. -/
def rel3 (w4 : T[S4x128x128, .f32]) : T[S128x128, .f32] :=
  shapeCast S128x128 (extractStridedSlice S1x128x128 ![3, 0, 0] w4 slices_S4x128x128_S1x128x128_3_0_0)
    shapeCasts_S1x128x128_S128x128

/-- The first layer's root weight. -/
def root0 (r : T[S2x128x128, .f32]) : T[S128x128, .f32] :=
  shapeCast S128x128 (extractStridedSlice S1x128x128 ![0, 0, 0] r slices_S2x128x128_S1x128x128_0_0_0)
    shapeCasts_S1x128x128_S128x128

/-- The second layer's root weight. -/
def root1 (r : T[S2x128x128, .f32]) : T[S128x128, .f32] :=
  shapeCast S128x128 (extractStridedSlice S1x128x128 ![1, 0, 0] r slices_S2x128x128_S1x128x128_1_0_0)
    shapeCasts_S1x128x128_S128x128

/-- The first layer's bias. -/
def bias0 (b : T[S2x128, .f32]) : T[S128, .f32] :=
  shapeCast S128 (extractStridedSlice S1x128 ![0, 0] b slices_S2x128_S1x128_0_0) shapeCasts_S1x128_S128

/-- The second layer's bias. -/
def bias1 (b : T[S2x128, .f32]) : T[S128, .f32] :=
  shapeCast S128 (extractStridedSlice S1x128 ![1, 0] b slices_S2x128_S1x128_1_0) shapeCasts_S1x128_S128

/-! ## The fused weight and the slices of the fused product -/

/-- The five 128-column weights side by side: `[W0 | W1 | W2 | W3 | root]`, 640 columns. -/
def wcat (w0 w1 w2 w3 r : T[S128x128, .f32]) : T[S128x640, .f32] :=
  concatenate S128x640 1 [⟨S128x128, w0⟩, ⟨S128x128, w1⟩, ⟨S128x128, w2⟩, ⟨S128x128, w3⟩, ⟨S128x128, r⟩]
    concatenates_S128x128_S128x128_S128x128_S128x128_S128x128_S128x640_d1

/-- The root projection: columns 512 … 639 of the fused product. -/
def projRoot (y : T[S50000x640, .f32]) : T[S50000x128, .f32] :=
  extractStridedSlice S50000x128 ![0, 512] y slices_S50000x640_S50000x128_0_512

/-- Relation 0's projection: columns 0 … 127 (the first 512 columns read as `[50000, 4, 128]`, member 0). -/
def projRel0 (y : T[S50000x640, .f32]) : T[S50000x128, .f32] :=
  shapeCast S50000x128
    (extractStridedSlice S50000x1x128 ![0, 0, 0] (shapeCast S50000x4x128 (extractStridedSlice S50000x512 ![0, 0] y slices_S50000x640_S50000x512_0_0)
      shapeCasts_S50000x512_S50000x4x128) slices_S50000x4x128_S50000x1x128_0_0_0)
    shapeCasts_S50000x1x128_S50000x128

/-- Relation 1's projection: columns 128 … 255. -/
def projRel1 (y : T[S50000x640, .f32]) : T[S50000x128, .f32] :=
  shapeCast S50000x128
    (extractStridedSlice S50000x1x128 ![0, 1, 0] (shapeCast S50000x4x128 (extractStridedSlice S50000x512 ![0, 0] y slices_S50000x640_S50000x512_0_0)
      shapeCasts_S50000x512_S50000x4x128) slices_S50000x4x128_S50000x1x128_0_1_0)
    shapeCasts_S50000x1x128_S50000x128

/-- Relation 2's projection: columns 256 … 383. -/
def projRel2 (y : T[S50000x640, .f32]) : T[S50000x128, .f32] :=
  shapeCast S50000x128
    (extractStridedSlice S50000x1x128 ![0, 2, 0] (shapeCast S50000x4x128 (extractStridedSlice S50000x512 ![0, 0] y slices_S50000x640_S50000x512_0_0)
      shapeCasts_S50000x512_S50000x4x128) slices_S50000x4x128_S50000x1x128_0_2_0)
    shapeCasts_S50000x1x128_S50000x128

/-- Relation 3's projection: columns 384 … 511. -/
def projRel3 (y : T[S50000x640, .f32]) : T[S50000x128, .f32] :=
  shapeCast S50000x128
    (extractStridedSlice S50000x1x128 ![0, 3, 0] (shapeCast S50000x4x128 (extractStridedSlice S50000x512 ![0, 0] y slices_S50000x640_S50000x512_0_0)
      shapeCasts_S50000x512_S50000x4x128) slices_S50000x4x128_S50000x1x128_0_3_0)
    shapeCasts_S50000x1x128_S50000x128

/-! ## The rectifier and the aggregation -/

/-- The rectifier between the layers: the maximum with zero, entry by entry. -/
def relu (x : T[S50000x128, .f32]) : T[S50000x128, .f32] :=
  maximumf x (broadcastInDim S50000x128 ![] bcast_S_S50000x128 (constant S_ .f32 0x00000000#32))

/-- One relation's mean aggregation of the projected rows `h`: gather the rows at the edge sources
    (a negative source counted from the end), keep the edges of type `rc`, add them up at the edge
    targets, and divide by the number of such edges into each target, at least one. -/
def relAgg (rc : BitVec 32) (h : T[S50000x128, .f32]) (src dst et : T[S800000, .i32]) : T[S50000x128, .f32] :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32)))
              src)))
        (broadcastInDim S800000x128 ![0, 1] bcast_S800000x1_S800000x128_0_1
          (broadcastInDim S800000x1 ![0] bcast_S800000_S800000x1_0 (uitofp .f32 (cmpi .eq et (broadcastInDim S800000 ![] bcast_S_S800000 (constantI S_ 32 rc))))))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (uitofp .f32 (cmpi .eq et (broadcastInDim S800000 ![] bcast_S_S800000 (constantI S_ 32 rc)))))
          (broadcastInDim S50000 ![] bcast_S_S50000 (constant S_ .f32 0x3F800000#32)))))

/-- One layer from its five projections: the root projection plus the bias (broadcast along the
    rows), plus the four relations' mean aggregations, added in the order of the relations. -/
def layerOf (pr h0 h1 h2 h3 : T[S50000x128, .f32]) (bias : T[S128, .f32]) (src dst et : T[S800000, .i32]) :
    T[S50000x128, .f32] :=
  addf
    (addf
      (addf
        (addf
          (addf pr
            (broadcastInDim S50000x128 ![0, 1] bcast_S1x128_S50000x128_0_1
              (broadcastInDim S1x128 ![1] bcast_S128_S1x128_1 bias)))
          (relAgg 0#32 h0 src dst et))
        (relAgg 1#32 h1 src dst et))
      (relAgg 2#32 h2 src dst et))
    (relAgg 3#32 h3 src dst et)

end Cert.Rgcn

end
-- ==== Proof.KernelHost.lean ====
import proofs.«174295_j50938312130617_1_alg».proof.Proof.Tail
import proofs.«174295_j50938312130617_1_alg».proof.Proof.Gen.KernelIdeal.Launch
import Idealize.ShloMosaic.Lib.StableHlo.Run

/-!
# The fused program's host stretches, read at the buffers that matter

Between its two matrix products the fused program runs five stretches of host operations.  Each is
read here at the few buffers a later stretch or a launch consumes, from an ARBITRARY valuation `W` of
the buffers before the stretch:

* before the first product: the fused weight `[W0 | W1 | W2 | W3 | root]` of layer 0, its bias, and the
  two edge lists;
* after the first product: the first layer, as the shared tail over the five column groups of the
  product;
* the rectifier;
* before the second product: the fused weight and the bias of layer 1;
* after the second product: the second layer, the same tail over the second product's column groups.

Every stretch also leaves the arguments and the earlier results it does not write as they were.  The
aggregation itself is never opened: each value is the named tail of `Tail.lean` applied to buffers of `W`.
-/

noncomputable section

namespace Cert.Rgcn

open Cert.KernelIdeal Cert.KernelIdeal.Gen Idealize.ShloMosaic Idealize.ShloMosaic.StableHlo

variable {F : FTy → Type} [FloatOps F]

/-! ## A five-operand operation read at its operands -/

/-- What an operation over a literal family of five references leaves at its result: its function at
    the five operands' contents, each at its own reference (so that the operands' own defining
    operations can be read in turn). -/
theorem nary5_result' {x a b c e y : Ref sig .tc}
    (f : ((k : Fin 5) → ((![x, a, b, c, e] : Fin 5 → Ref sig .tc) k).ty.Contents (Elt F)) → y.ty.Contents (Elt F))
    (hxs hy) (V : Valuation τ sig (Elt F)) :
    (nary (τ := τ) ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

/-! ## Before the first product -/

set_option maxHeartbeats 400000 in
/-- The first product's right operand is layer 0's four relation weights and root weight side by side. -/
theorem pre1_v18 (W : Valuation τ sig (Elt F)) :
    after hostOps0 W (Proc.devRef .tc main_v18)
      = wcat (rel0 (lay0 (W (Proc.devRef .tc main_arg3)))) (rel1 (lay0 (W (Proc.devRef .tc main_arg3))))
          (rel2 (lay0 (W (Proc.devRef .tc main_arg3)))) (rel3 (lay0 (W (Proc.devRef .tc main_arg3))))
          (root0 (W (Proc.devRef .tc main_arg4))) := by
  simp (disch := decide) only [after_cons, after_nil, nary5_result', unary_result', reshape_result',
    unary_result_ne', reshape_result_ne', nary_result_ne']
  rfl

set_option maxHeartbeats 400000 in
/-- Layer 0's bias. -/
theorem pre1_v9 (W : Valuation τ sig (Elt F)) :
    after hostOps0 W (Proc.devRef .tc main_v9) = bias0 (W (Proc.devRef .tc main_arg5)) := by
  after_results_simp
  rfl

set_option maxHeartbeats 400000 in
/-- The edge sources. -/
theorem pre1_v1 (W : Valuation τ sig (Elt F)) :
    after hostOps0 W (Proc.devRef .tc main_v1) = srcOf (W (Proc.devRef .tc main_arg1)) := by
  after_results_simp
  rfl

set_option maxHeartbeats 400000 in
/-- The edge targets. -/
theorem pre1_v3 (W : Valuation τ sig (Elt F)) :
    after hostOps0 W (Proc.devRef .tc main_v3) = dstOf (W (Proc.devRef .tc main_arg1)) := by
  after_results_simp
  rfl

set_option maxHeartbeats 400000 in
/-- The arguments are not written. -/
theorem pre1_keep_arg0 (W : Valuation τ sig (Elt F)) :
    after hostOps0 W (Proc.devRef .tc main_arg0) = W (Proc.devRef .tc main_arg0) := by
  after_results_simp

set_option maxHeartbeats 400000 in
theorem pre1_keep_arg2 (W : Valuation τ sig (Elt F)) :
    after hostOps0 W (Proc.devRef .tc main_arg2) = W (Proc.devRef .tc main_arg2) := by
  after_results_simp

set_option maxHeartbeats 400000 in
theorem pre1_keep_arg3 (W : Valuation τ sig (Elt F)) :
    after hostOps0 W (Proc.devRef .tc main_arg3) = W (Proc.devRef .tc main_arg3) := by
  after_results_simp

set_option maxHeartbeats 400000 in
theorem pre1_keep_arg4 (W : Valuation τ sig (Elt F)) :
    after hostOps0 W (Proc.devRef .tc main_arg4) = W (Proc.devRef .tc main_arg4) := by
  after_results_simp

set_option maxHeartbeats 400000 in
theorem pre1_keep_arg5 (W : Valuation τ sig (Elt F)) :
    after hostOps0 W (Proc.devRef .tc main_arg5) = W (Proc.devRef .tc main_arg5) := by
  after_results_simp

/-! ## After the first product: the first layer -/

set_option maxRecDepth 8192 in
set_option maxHeartbeats 4000000 in
/-- The first layer before the rectifier: the shared tail over the first product's five column groups. -/
theorem layer1_v133 (W : Valuation τ sig (Elt F)) :
    after hostOps1 W (Proc.devRef .tc main_v133)
      = layerOf (projRoot (W (Proc.devRef .tc main_v19))) (projRel0 (W (Proc.devRef .tc main_v19)))
          (projRel1 (W (Proc.devRef .tc main_v19))) (projRel2 (W (Proc.devRef .tc main_v19)))
          (projRel3 (W (Proc.devRef .tc main_v19))) (W (Proc.devRef .tc main_v9))
          (W (Proc.devRef .tc main_v1)) (W (Proc.devRef .tc main_v3)) (W (Proc.devRef .tc main_arg2)) := by
  after_results_simp
  rfl

set_option maxRecDepth 8192 in
set_option maxHeartbeats 4000000 in
/-- The edge lists and the arguments still needed are not written. -/
theorem layer1_keep_v1 (W : Valuation τ sig (Elt F)) :
    after hostOps1 W (Proc.devRef .tc main_v1) = W (Proc.devRef .tc main_v1) := by
  after_results_simp

set_option maxRecDepth 8192 in
set_option maxHeartbeats 4000000 in
theorem layer1_keep_v3 (W : Valuation τ sig (Elt F)) :
    after hostOps1 W (Proc.devRef .tc main_v3) = W (Proc.devRef .tc main_v3) := by
  after_results_simp

set_option maxRecDepth 8192 in
set_option maxHeartbeats 4000000 in
theorem layer1_keep_arg2 (W : Valuation τ sig (Elt F)) :
    after hostOps1 W (Proc.devRef .tc main_arg2) = W (Proc.devRef .tc main_arg2) := by
  after_results_simp

set_option maxRecDepth 8192 in
set_option maxHeartbeats 4000000 in
theorem layer1_keep_arg3 (W : Valuation τ sig (Elt F)) :
    after hostOps1 W (Proc.devRef .tc main_arg3) = W (Proc.devRef .tc main_arg3) := by
  after_results_simp

set_option maxRecDepth 8192 in
set_option maxHeartbeats 4000000 in
theorem layer1_keep_arg4 (W : Valuation τ sig (Elt F)) :
    after hostOps1 W (Proc.devRef .tc main_arg4) = W (Proc.devRef .tc main_arg4) := by
  after_results_simp

set_option maxRecDepth 8192 in
set_option maxHeartbeats 4000000 in
theorem layer1_keep_arg5 (W : Valuation τ sig (Elt F)) :
    after hostOps1 W (Proc.devRef .tc main_arg5) = W (Proc.devRef .tc main_arg5) := by
  after_results_simp

/-! ## The rectifier -/

set_option maxHeartbeats 400000 in
/-- The second product's left operand is the rectified first layer. -/
theorem relu_v134 (W : Valuation τ sig (Elt F)) :
    after hostOps1_1 W (Proc.devRef .tc main_v134) = relu (W (Proc.devRef .tc main_v133)) := by
  after_results_simp
  rfl

set_option maxHeartbeats 400000 in
/-- The edge lists and the arguments still needed are not written. -/
theorem relu_keep_v1 (W : Valuation τ sig (Elt F)) :
    after hostOps1_1 W (Proc.devRef .tc main_v1) = W (Proc.devRef .tc main_v1) := by
  after_results_simp

set_option maxHeartbeats 400000 in
theorem relu_keep_v3 (W : Valuation τ sig (Elt F)) :
    after hostOps1_1 W (Proc.devRef .tc main_v3) = W (Proc.devRef .tc main_v3) := by
  after_results_simp

set_option maxHeartbeats 400000 in
theorem relu_keep_arg2 (W : Valuation τ sig (Elt F)) :
    after hostOps1_1 W (Proc.devRef .tc main_arg2) = W (Proc.devRef .tc main_arg2) := by
  after_results_simp

set_option maxHeartbeats 400000 in
theorem relu_keep_arg3 (W : Valuation τ sig (Elt F)) :
    after hostOps1_1 W (Proc.devRef .tc main_arg3) = W (Proc.devRef .tc main_arg3) := by
  after_results_simp

set_option maxHeartbeats 400000 in
theorem relu_keep_arg4 (W : Valuation τ sig (Elt F)) :
    after hostOps1_1 W (Proc.devRef .tc main_arg4) = W (Proc.devRef .tc main_arg4) := by
  after_results_simp

set_option maxHeartbeats 400000 in
theorem relu_keep_arg5 (W : Valuation τ sig (Elt F)) :
    after hostOps1_1 W (Proc.devRef .tc main_arg5) = W (Proc.devRef .tc main_arg5) := by
  after_results_simp

/-! ## Before the second product -/

set_option maxHeartbeats 400000 in
/-- The second product's right operand is layer 1's four relation weights and root weight side by side. -/
theorem pre2_v149 (W : Valuation τ sig (Elt F)) :
    after hostOps1_2 W (Proc.devRef .tc main_v149)
      = wcat (rel0 (lay1 (W (Proc.devRef .tc main_arg3)))) (rel1 (lay1 (W (Proc.devRef .tc main_arg3))))
          (rel2 (lay1 (W (Proc.devRef .tc main_arg3)))) (rel3 (lay1 (W (Proc.devRef .tc main_arg3))))
          (root1 (W (Proc.devRef .tc main_arg4))) := by
  simp (disch := decide) only [after_cons, after_nil, nary5_result', unary_result', reshape_result',
    unary_result_ne', reshape_result_ne', nary_result_ne']
  rfl

set_option maxHeartbeats 400000 in
/-- Layer 1's bias. -/
theorem pre2_v140 (W : Valuation τ sig (Elt F)) :
    after hostOps1_2 W (Proc.devRef .tc main_v140) = bias1 (W (Proc.devRef .tc main_arg5)) := by
  after_results_simp
  rfl

set_option maxHeartbeats 400000 in
/-- The rectified first layer, the edge lists and the edge types are not written. -/
theorem pre2_keep_v134 (W : Valuation τ sig (Elt F)) :
    after hostOps1_2 W (Proc.devRef .tc main_v134) = W (Proc.devRef .tc main_v134) := by
  after_results_simp

set_option maxHeartbeats 400000 in
theorem pre2_keep_v1 (W : Valuation τ sig (Elt F)) :
    after hostOps1_2 W (Proc.devRef .tc main_v1) = W (Proc.devRef .tc main_v1) := by
  after_results_simp

set_option maxHeartbeats 400000 in
theorem pre2_keep_v3 (W : Valuation τ sig (Elt F)) :
    after hostOps1_2 W (Proc.devRef .tc main_v3) = W (Proc.devRef .tc main_v3) := by
  after_results_simp

set_option maxHeartbeats 400000 in
theorem pre2_keep_arg2 (W : Valuation τ sig (Elt F)) :
    after hostOps1_2 W (Proc.devRef .tc main_arg2) = W (Proc.devRef .tc main_arg2) := by
  after_results_simp

/-! ## After the second product: the second layer -/

set_option maxRecDepth 8192 in
set_option maxHeartbeats 4000000 in
/-- The program's result: the shared tail over the second product's five column groups. -/
theorem layer2_v264 (W : Valuation τ sig (Elt F)) :
    after hostOps2 W (Proc.devRef .tc main_v264)
      = layerOf (projRoot (W (Proc.devRef .tc main_v150))) (projRel0 (W (Proc.devRef .tc main_v150)))
          (projRel1 (W (Proc.devRef .tc main_v150))) (projRel2 (W (Proc.devRef .tc main_v150)))
          (projRel3 (W (Proc.devRef .tc main_v150))) (W (Proc.devRef .tc main_v140))
          (W (Proc.devRef .tc main_v1)) (W (Proc.devRef .tc main_v3)) (W (Proc.devRef .tc main_arg2)) := by
  after_results_simp
  rfl

end Cert.Rgcn

end
-- ==== Proof.KernelValue.lean ====
/-
  What the kernel's program returns, over the extended reals, as one function of its six argument arrays.
  Reading the returned buffer back through the boundaries of @main: the second layer's aggregation of the five column
  groups of the second launch's product; that product's left operand is the rectified output of the first layer, which
  is the same aggregation of the five column groups of the first launch's product of `x` with the first layer's
  matrices laid side by side.  Nothing between two boundaries touches a buffer a later stretch still reads.
-/
import proofs.«174295_j50938312130617_1_alg».proof.Proof.BoundsI
import proofs.«174295_j50938312130617_1_alg».proof.Proof.Product
import proofs.«174295_j50938312130617_1_alg».proof.Proof.KernelHost

set_option maxRecDepth 16384

noncomputable section

namespace Cert.KernelIdeal.Hand

open Cert.KernelIdeal Cert.KernelIdeal.Gen Cert.Rgcn
open Idealize.ShloMosaic Idealize.ShloMosaic.TcCoe
open Idealize.SL Idealize.SL.Sem

local notation "T[" S ", " e "]" => BufTy.Contents (Elt Ideal) (BufTy.mk S e)

/-- The first launch's product, from the arguments. -/
def fused1 (x : T[S50000x128, .f32]) (w : T[S2x4x128x128, .f32]) (r : T[S2x128x128, .f32]) : T[S50000x640, .f32] :=
  MM x (wcat (rel0 (lay0 w)) (rel1 (lay0 w)) (rel2 (lay0 w)) (rel3 (lay0 w)) (root0 r))

/-- The first layer's output after the rectifier. -/
def hiddenK (x : T[S50000x128, .f32]) (ei : T[S2x800000, .i32]) (et : T[S800000, .i32])
    (w : T[S2x4x128x128, .f32]) (r : T[S2x128x128, .f32]) (b : T[S2x128, .f32]) : T[S50000x128, .f32] :=
  relu (layerOf (projRoot (fused1 x w r)) (projRel0 (fused1 x w r)) (projRel1 (fused1 x w r)) (projRel2 (fused1 x w r))
    (projRel3 (fused1 x w r)) (bias0 b) (srcOf ei) (dstOf ei) et)

/-- The second launch's product. -/
def fused2 (x : T[S50000x128, .f32]) (ei : T[S2x800000, .i32]) (et : T[S800000, .i32])
    (w : T[S2x4x128x128, .f32]) (r : T[S2x128x128, .f32]) (b : T[S2x128, .f32]) : T[S50000x640, .f32] :=
  MM (hiddenK x ei et w r b) (wcat (rel0 (lay1 w)) (rel1 (lay1 w)) (rel2 (lay1 w)) (rel3 (lay1 w)) (root1 r))

/-- The kernel's result as a function of the arguments. -/
def netK (x : T[S50000x128, .f32]) (ei : T[S2x800000, .i32]) (et : T[S800000, .i32])
    (w : T[S2x4x128x128, .f32]) (r : T[S2x128x128, .f32]) (b : T[S2x128, .f32]) : T[S50000x128, .f32] :=
  layerOf (projRoot (fused2 x ei et w r b)) (projRel0 (fused2 x ei et w r b)) (projRel1 (fused2 x ei et w r b))
    (projRel2 (fused2 x ei et w r b)) (projRel3 (fused2 x ei et w r b)) (bias1 b) (srcOf ei) (dstOf ei) et

variable (m : (ℓ : Loc nD τ sig) → Buf (Elt Ideal) ℓ) (ρ : Dev nD → PrngReg)

/-- The returned buffer at @main's end is that function of the launch contents of the six arguments. -/
theorem kernel_value (c : Dev nD) :
    W7 m ρ c (Proc.devRef .tc main_v264) = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1w : W1 m ρ c (Proc.devRef .tc main_v18) = wcat (rel0 (lay0 (W0 m ρ c (Proc.devRef .tc main_arg3)))) (rel1 (lay0 (W0 m ρ c (Proc.devRef .tc main_arg3)))) (rel2 (lay0 (W0 m ρ c (Proc.devRef .tc main_arg3)))) (rel3 (lay0 (W0 m ρ c (Proc.devRef .tc main_arg3)))) (root0 (W0 m ρ c (Proc.devRef .tc main_arg4))) := pre1_v18 (W0 m ρ c)
  have h1b : W1 m ρ c (Proc.devRef .tc main_v9) = bias0 (W0 m ρ c (Proc.devRef .tc main_arg5)) := pre1_v9 (W0 m ρ c)
  have h1s : W1 m ρ c (Proc.devRef .tc main_v1) = srcOf (W0 m ρ c (Proc.devRef .tc main_arg1)) := pre1_v1 (W0 m ρ c)
  have h1d : W1 m ρ c (Proc.devRef .tc main_v3) = dstOf (W0 m ρ c (Proc.devRef .tc main_arg1)) := pre1_v3 (W0 m ρ c)
  have h1a0 : W1 m ρ c (Proc.devRef .tc main_arg0) = W0 m ρ c (Proc.devRef .tc main_arg0) := pre1_keep_arg0 (W0 m ρ c)
  have h1a2 : W1 m ρ c (Proc.devRef .tc main_arg2) = W0 m ρ c (Proc.devRef .tc main_arg2) := pre1_keep_arg2 (W0 m ρ c)
  have h1a3 : W1 m ρ c (Proc.devRef .tc main_arg3) = W0 m ρ c (Proc.devRef .tc main_arg3) := pre1_keep_arg3 (W0 m ρ c)
  have h1a4 : W1 m ρ c (Proc.devRef .tc main_arg4) = W0 m ρ c (Proc.devRef .tc main_arg4) := pre1_keep_arg4 (W0 m ρ c)
  have h1a5 : W1 m ρ c (Proc.devRef .tc main_arg5) = W0 m ρ c (Proc.devRef .tc main_arg5) := pre1_keep_arg5 (W0 m ρ c)
  have h2y : W2 m ρ c (Proc.devRef .tc main_v19) = MM (W1 m ρ c (Proc.devRef .tc main_arg0)) (W1 m ρ c (Proc.devRef .tc main_v18)) := (W2_arr m ρ c 2).trans (product0 (V1 m ρ) c)
  have h2_v9 : W2 m ρ c (Proc.devRef .tc main_v9) = W1 m ρ c (Proc.devRef .tc main_v9) := W2_of_ne m ρ c main_v9 (by decide)
  have h2_v1 : W2 m ρ c (Proc.devRef .tc main_v1) = W1 m ρ c (Proc.devRef .tc main_v1) := W2_of_ne m ρ c main_v1 (by decide)
  have h2_v3 : W2 m ρ c (Proc.devRef .tc main_v3) = W1 m ρ c (Proc.devRef .tc main_v3) := W2_of_ne m ρ c main_v3 (by decide)
  have h2_arg2 : W2 m ρ c (Proc.devRef .tc main_arg2) = W1 m ρ c (Proc.devRef .tc main_arg2) := W2_of_ne m ρ c main_arg2 (by decide)
  have h2_arg3 : W2 m ρ c (Proc.devRef .tc main_arg3) = W1 m ρ c (Proc.devRef .tc main_arg3) := W2_of_ne m ρ c main_arg3 (by decide)
  have h2_arg4 : W2 m ρ c (Proc.devRef .tc main_arg4) = W1 m ρ c (Proc.devRef .tc main_arg4) := W2_of_ne m ρ c main_arg4 (by decide)
  have h2_arg5 : W2 m ρ c (Proc.devRef .tc main_arg5) = W1 m ρ c (Proc.devRef .tc main_arg5) := W2_of_ne m ρ c main_arg5 (by decide)
  have h3o : W3 m ρ c (Proc.devRef .tc main_v133) = layerOf (projRoot (W2 m ρ c (Proc.devRef .tc main_v19))) (projRel0 (W2 m ρ c (Proc.devRef .tc main_v19))) (projRel1 (W2 m ρ c (Proc.devRef .tc main_v19))) (projRel2 (W2 m ρ c (Proc.devRef .tc main_v19))) (projRel3 (W2 m ρ c (Proc.devRef .tc main_v19))) (W2 m ρ c (Proc.devRef .tc main_v9)) (W2 m ρ c (Proc.devRef .tc main_v1)) (W2 m ρ c (Proc.devRef .tc main_v3)) (W2 m ρ c (Proc.devRef .tc main_arg2)) := layer1_v133 (W2 m ρ c)
  have h3_v1 : W3 m ρ c (Proc.devRef .tc main_v1) = W2 m ρ c (Proc.devRef .tc main_v1) := layer1_keep_v1 (W2 m ρ c)
  have h3_v3 : W3 m ρ c (Proc.devRef .tc main_v3) = W2 m ρ c (Proc.devRef .tc main_v3) := layer1_keep_v3 (W2 m ρ c)
  have h3_arg2 : W3 m ρ c (Proc.devRef .tc main_arg2) = W2 m ρ c (Proc.devRef .tc main_arg2) := layer1_keep_arg2 (W2 m ρ c)
  have h3_arg3 : W3 m ρ c (Proc.devRef .tc main_arg3) = W2 m ρ c (Proc.devRef .tc main_arg3) := layer1_keep_arg3 (W2 m ρ c)
  have h3_arg4 : W3 m ρ c (Proc.devRef .tc main_arg4) = W2 m ρ c (Proc.devRef .tc main_arg4) := layer1_keep_arg4 (W2 m ρ c)
  have h3_arg5 : W3 m ρ c (Proc.devRef .tc main_arg5) = W2 m ρ c (Proc.devRef .tc main_arg5) := layer1_keep_arg5 (W2 m ρ c)
  have h4o : W4 m ρ c (Proc.devRef .tc main_v134) = relu (W3 m ρ c (Proc.devRef .tc main_v133)) := relu_v134 (W3 m ρ c)
  have h4_v1 : W4 m ρ c (Proc.devRef .tc main_v1) = W3 m ρ c (Proc.devRef .tc main_v1) := relu_keep_v1 (W3 m ρ c)
  have h4_v3 : W4 m ρ c (Proc.devRef .tc main_v3) = W3 m ρ c (Proc.devRef .tc main_v3) := relu_keep_v3 (W3 m ρ c)
  have h4_arg2 : W4 m ρ c (Proc.devRef .tc main_arg2) = W3 m ρ c (Proc.devRef .tc main_arg2) := relu_keep_arg2 (W3 m ρ c)
  have h4_arg3 : W4 m ρ c (Proc.devRef .tc main_arg3) = W3 m ρ c (Proc.devRef .tc main_arg3) := relu_keep_arg3 (W3 m ρ c)
  have h4_arg4 : W4 m ρ c (Proc.devRef .tc main_arg4) = W3 m ρ c (Proc.devRef .tc main_arg4) := relu_keep_arg4 (W3 m ρ c)
  have h4_arg5 : W4 m ρ c (Proc.devRef .tc main_arg5) = W3 m ρ c (Proc.devRef .tc main_arg5) := relu_keep_arg5 (W3 m ρ c)
  have h5w : W5 m ρ c (Proc.devRef .tc main_v149) = wcat (rel0 (lay1 (W4 m ρ c (Proc.devRef .tc main_arg3)))) (rel1 (lay1 (W4 m ρ c (Proc.devRef .tc main_arg3)))) (rel2 (lay1 (W4 m ρ c (Proc.devRef .tc main_arg3)))) (rel3 (lay1 (W4 m ρ c (Proc.devRef .tc main_arg3)))) (root1 (W4 m ρ c (Proc.devRef .tc main_arg4))) := pre2_v149 (W4 m ρ c)
  have h5b : W5 m ρ c (Proc.devRef .tc main_v140) = bias1 (W4 m ρ c (Proc.devRef .tc main_arg5)) := pre2_v140 (W4 m ρ c)
  have h5_v134 : W5 m ρ c (Proc.devRef .tc main_v134) = W4 m ρ c (Proc.devRef .tc main_v134) := pre2_keep_v134 (W4 m ρ c)
  have h5_v1 : W5 m ρ c (Proc.devRef .tc main_v1) = W4 m ρ c (Proc.devRef .tc main_v1) := pre2_keep_v1 (W4 m ρ c)
  have h5_v3 : W5 m ρ c (Proc.devRef .tc main_v3) = W4 m ρ c (Proc.devRef .tc main_v3) := pre2_keep_v3 (W4 m ρ c)
  have h5_arg2 : W5 m ρ c (Proc.devRef .tc main_arg2) = W4 m ρ c (Proc.devRef .tc main_arg2) := pre2_keep_arg2 (W4 m ρ c)
  have h6y : W6 m ρ c (Proc.devRef .tc main_v150) = MM (W5 m ρ c (Proc.devRef .tc main_v134)) (W5 m ρ c (Proc.devRef .tc main_v149)) := (W6_arr m ρ c 2).trans (product1 (V5 m ρ) c)
  have h6_v140 : W6 m ρ c (Proc.devRef .tc main_v140) = W5 m ρ c (Proc.devRef .tc main_v140) := W6_of_ne m ρ c main_v140 (by decide)
  have h6_v1 : W6 m ρ c (Proc.devRef .tc main_v1) = W5 m ρ c (Proc.devRef .tc main_v1) := W6_of_ne m ρ c main_v1 (by decide)
  have h6_v3 : W6 m ρ c (Proc.devRef .tc main_v3) = W5 m ρ c (Proc.devRef .tc main_v3) := W6_of_ne m ρ c main_v3 (by decide)
  have h6_arg2 : W6 m ρ c (Proc.devRef .tc main_arg2) = W5 m ρ c (Proc.devRef .tc main_arg2) := W6_of_ne m ρ c main_arg2 (by decide)
  have h7o : W7 m ρ c (Proc.devRef .tc main_v264) = layerOf (projRoot (W6 m ρ c (Proc.devRef .tc main_v150))) (projRel0 (W6 m ρ c (Proc.devRef .tc main_v150))) (projRel1 (W6 m ρ c (Proc.devRef .tc main_v150))) (projRel2 (W6 m ρ c (Proc.devRef .tc main_v150))) (projRel3 (W6 m ρ c (Proc.devRef .tc main_v150))) (W6 m ρ c (Proc.devRef .tc main_v140)) (W6 m ρ c (Proc.devRef .tc main_v1)) (W6 m ρ c (Proc.devRef .tc main_v3)) (W6 m ρ c (Proc.devRef .tc main_arg2)) := layer2_v264 (W6 m ρ c)
  rw [h7o, h6y, h6_v140, h6_v1, h6_v3, h6_arg2, h5w, h5b, h5_v134, h5_v1, h5_v3, h5_arg2, h4o, h4_v1, h4_v3, h4_arg2, h4_arg3, h4_arg4, h4_arg5, h3o, h3_v1, h3_v3, h3_arg2, h3_arg3, h3_arg4, h3_arg5, h2y, h2_v9, h2_v1, h2_v3, h2_arg2, h2_arg3, h2_arg4, h2_arg5, h1w, h1b, h1s, h1d, h1a0, h1a2, h1a3, h1a4, h1a5]
  rfl

end Cert.KernelIdeal.Hand

end
-- ==== Proof.RefTerm.lean ====
import proofs.«174295_j50938312130617_1_alg».proof.Proof.Tail
import proofs.«174295_j50938312130617_1_alg».proof.Proof.Gen.ReferenceIdeal.Run

/-!
# The reference's result as the shared tail over plain products

The reference computes each layer's five projections as five separate products of the node features
with a 128 × 128 weight, and then runs the same aggregation as the fused program.  Its result is
therefore the tail of `Tail.lean` applied to those products: `netR`.  The comparison with the printed
term is operation for operation; the aggregation is not opened.
-/

noncomputable section

namespace Cert.Rgcn

open Cert.KernelIdeal Idealize.ShloMosaic Idealize.ShloMosaic.TcCoe Idealize.SL.Sem

variable {F : FTy → Type} [FloatOps F] [Cert.KernelIdeal.Facts]

local notation "T[" S ", " e "]" => BufTy.Contents (Elt F) (BufTy.mk S e)

/-- One projection as the reference computes it: the plain product of the node features with one
    128 × 128 weight. -/
def DG (l : T[S50000x128, .f32]) (r : T[S128x128, .f32]) : T[S50000x128, .f32] :=
  Host.dotGeneral Cert.ReferenceIdeal.dot_S50000x128_S128x128_S50000x128_1_0_0_1_n_n none l r

/-- The hidden features: the rectified first layer, over the five separate products of the input. -/
def hid (x : T[S50000x128, .f32]) (ei : T[S2x800000, .i32]) (et : T[S800000, .i32])
    (w : T[S2x4x128x128, .f32]) (r : T[S2x128x128, .f32]) (b : T[S2x128, .f32]) : T[S50000x128, .f32] :=
  relu (layerOf (DG x (root0 r)) (DG x (rel0 (lay0 w))) (DG x (rel1 (lay0 w))) (DG x (rel2 (lay0 w)))
    (DG x (rel3 (lay0 w))) (bias0 b) (srcOf ei) (dstOf ei) et)

/-- The reference network: the second layer over the five separate products of the hidden features. -/
def netR (x : T[S50000x128, .f32]) (ei : T[S2x800000, .i32]) (et : T[S800000, .i32])
    (w : T[S2x4x128x128, .f32]) (r : T[S2x128x128, .f32]) (b : T[S2x128, .f32]) : T[S50000x128, .f32] :=
  layerOf (DG (hid x ei et w r b) (root1 r)) (DG (hid x ei et w r b) (rel0 (lay1 w)))
    (DG (hid x ei et w r b) (rel1 (lay1 w))) (DG (hid x ei et w r b) (rel2 (lay1 w)))
    (DG (hid x ei et w r b) (rel3 (lay1 w))) (bias1 b) (srcOf ei) (dstOf ei) et

set_option maxRecDepth 8192 in
set_option maxHeartbeats 400000 in
/-- The reference's result is the shared tail over plain products: its printed term is `netR` of its six
    arguments, operation for operation. -/
theorem ref_term
    (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v248 (F := F) m c
      = netR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  unfold Cert.ReferenceIdeal.Value.res_main_v248 netR hid
  rfl

end Cert.Rgcn

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«174295_j50938312130617_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.Fused.lean ====
/-
  One product instead of five.  Let `W = [w₀ | w₁ | w₂ | w₃ | w₄]` be five `[128, 128]` matrices side by side and
  `x` a `[50000, 128]` array.  Column group `n` of `x · W` is `x · wₙ`:
  entry `(i, c)` of the group is entry `(i, 128 n + c)` of `x · W`, that is `Σ_k x[i, k] · W[k, 128 n + c]`, and
  `W[k, 128 n + c] = wₙ[k, c]`; the host's product `x · wₙ` at `(i, c)` is the same sum `Σ_k x[i, k] · wₙ[k, c]`.
  The sums are the same term by term, so nothing about finiteness is used.
  The first four groups are cut out by regrouping the first 512 columns as `[50000, 4, 128]`; the fifth by slicing
  the columns 512 … 639.
-/
import proofs.«174295_j50938312130617_1_alg».proof.Proof.Columns
import proofs.«174295_j50938312130617_1_alg».proof.Proof.LibDotGeneralEntry

noncomputable section

open scoped BigOperators

namespace Cert.Rgcn

open Idealize.ShloMosaic Idealize.ShloMosaic.ValueIdx

variable (D : DotDims ⟨2, ![50000, 128]⟩ ⟨2, ![128, 128]⟩ ⟨2, ![50000, 128]⟩)
  (hlb : D.lhsBatch = []) (hln : D.lhsNonContracting = [0]) (hlc : D.lhsContracting = [1])
  (hrb : D.rhsBatch = []) (hrn : D.rhsNonContracting = [1]) (hrc : D.rhsContracting = [0])
  (x : FVec Ideal ⟨2, ![50000, 128]⟩ .f32) (w : Fin 5 → FVec Ideal ⟨2, ![128, 128]⟩ .f32)
  (hcat : Shape.Concatenates (([⟨⟨2, ![128, 128]⟩, w 0⟩, ⟨⟨2, ![128, 128]⟩, w 1⟩, ⟨⟨2, ![128, 128]⟩, w 2⟩, ⟨⟨2, ![128, 128]⟩, w 3⟩,
        ⟨⟨2, ![128, 128]⟩, w 4⟩] : List ((s : Shape) × (s.Idx → Ideal .f32))).map (·.1)) ⟨2, ![128, 640]⟩ 1)

include hlb hln hlc hrb hrn hrc

/-- Entry `(i, 128 n + c)` of the product with the side-by-side matrix is entry `(i, c)` of the product with the
    `n`-th matrix. -/
theorem MM_side_by_side (n : Fin 5) (i : Fin 50000) (c : Fin 128) (hc : 128 * n.val + c.val < 640) :
    MM x (concatenate ⟨2, ![128, 640]⟩ 1 [⟨⟨2, ![128, 128]⟩, w 0⟩, ⟨⟨2, ![128, 128]⟩, w 1⟩, ⟨⟨2, ![128, 128]⟩, w 2⟩,
        ⟨⟨2, ![128, 128]⟩, w 3⟩, ⟨⟨2, ![128, 128]⟩, w 4⟩] hcat) (ix2 i ⟨128 * n.val + c.val, hc⟩)
      = Host.dotGeneral D none x (w n) (ix2 i c) := by
  rw [MM_apply]
  refine Eq.trans ?_ (Ideal.dotGeneral_rows_cols D hlb hln hlc hrb hrn hrc none .single x (w n) i c).symm
  refine Finset.sum_congr rfl fun k _ => ?_
  rw [side_by_side_apply w hcat n k c hc]

/-- The fifth group, cut out as the columns 512 … 639, is the product with the fifth matrix. -/
theorem fused_last (h : (⟨2, ![50000, 640]⟩ : Shape).Slices ![0, 512] ⟨2, ![50000, 128]⟩) :
    extractStridedSlice ⟨2, ![50000, 128]⟩ ![0, 512] (MM x (concatenate ⟨2, ![128, 640]⟩ 1 [⟨⟨2, ![128, 128]⟩, w 0⟩,
        ⟨⟨2, ![128, 128]⟩, w 1⟩, ⟨⟨2, ![128, 128]⟩, w 2⟩, ⟨⟨2, ![128, 128]⟩, w 3⟩, ⟨⟨2, ![128, 128]⟩, w 4⟩] hcat)) h
      = Host.dotGeneral D none x (w 4) := by
  funext j
  obtain ⟨i, c, rfl⟩ : ∃ (i : Fin 50000) (c : Fin 128), j = ix2 i c := ⟨j 0, j 1, eq_ix2 j⟩
  have hc : 512 + c.val < 640 := by have := c.isLt; omega
  rw [slice_cols_apply 512 _ h i c hc]
  exact MM_side_by_side D hlb hln hlc hrb hrn hrc x w hcat 4 i c hc

/-- Group `r < 4`, cut out by regrouping the first 512 columns, is the product with the `r`-th matrix. -/
theorem fused_group (r : Nat) (hr : r < 4)
    (h1 : (⟨2, ![50000, 640]⟩ : Shape).Slices ![0, 0] ⟨2, ![50000, 4 * 128]⟩)
    (h2 : (⟨2, ![50000, 4 * 128]⟩ : Shape).ShapeCasts ⟨3, ![50000, 4, 128]⟩)
    (h3 : (⟨3, ![50000, 4, 128]⟩ : Shape).Slices ![0, r, 0] ⟨3, ![50000, 1, 128]⟩)
    (h4 : (⟨3, ![50000, 1, 128]⟩ : Shape).ShapeCasts ⟨2, ![50000, 128]⟩) :
    shapeCast ⟨2, ![50000, 128]⟩ (extractStridedSlice ⟨3, ![50000, 1, 128]⟩ ![0, r, 0]
        (shapeCast ⟨3, ![50000, 4, 128]⟩ (extractStridedSlice ⟨2, ![50000, 4 * 128]⟩ ![0, 0]
          (MM x (concatenate ⟨2, ![128, 640]⟩ 1 [⟨⟨2, ![128, 128]⟩, w 0⟩, ⟨⟨2, ![128, 128]⟩, w 1⟩, ⟨⟨2, ![128, 128]⟩, w 2⟩,
            ⟨⟨2, ![128, 128]⟩, w 3⟩, ⟨⟨2, ![128, 128]⟩, w 4⟩] hcat)) h1) h2) h3) h4
      = Host.dotGeneral D none x (w ⟨r, by omega⟩) := by
  funext j
  obtain ⟨i, c, rfl⟩ : ∃ (i : Fin 50000) (c : Fin 128), j = ix2 i c := ⟨j 0, j 1, eq_ix2 j⟩
  have hc : 128 * r + c.val < 640 := by have := c.isLt; omega
  rw [group_cols_apply r hr _ h1 h2 h3 h4 i c hc]
  exact MM_side_by_side D hlb hln hlc hrb hrn hrc x w hcat ⟨r, by omega⟩ i c hc

end Cert.Rgcn

end
-- ==== Proof.Bridge.lean ====
/-
  The kernel's function and the reference's function of the six arguments are one function.
  They differ only in how a layer's five projections are obtained: the kernel takes the five column groups of ONE
  product with the five matrices laid side by side, the reference takes the five products one by one.  A column group of
  the one product is the corresponding single product, so the same aggregation is applied to equal arrays — in the first
  layer to `x`, in the second to the first layer's rectified output, which is therefore the same array on both sides.
-/
import proofs.«174295_j50938312130617_1_alg».proof.Proof.KernelValue
import proofs.«174295_j50938312130617_1_alg».proof.Proof.RefTerm
import proofs.«174295_j50938312130617_1_alg».proof.Proof.Fused

set_option maxRecDepth 16384

noncomputable section

namespace Cert.Rgcn

open Cert.KernelIdeal Cert.KernelIdeal.Hand
open Idealize.ShloMosaic Idealize.ShloMosaic.ValueIdx

local notation "T[" S ", " e "]" => BufTy.Contents (Elt Ideal) (BufTy.mk S e)

variable (x : T[S50000x128, .f32]) (w0 w1 w2 w3 rr : T[S128x128, .f32])

/-- The fifth column group of the one product is the product with the root matrix. -/
theorem projRoot_MM : projRoot (MM x (wcat w0 w1 w2 w3 rr)) = DG x rr := by
  unfold projRoot wcat DG
  exact fused_last Cert.ReferenceIdeal.dot_S50000x128_S128x128_S50000x128_1_0_0_1_n_n rfl rfl rfl rfl rfl rfl x
    ![w0, w1, w2, w3, rr] _ _

theorem projRel0_MM : projRel0 (MM x (wcat w0 w1 w2 w3 rr)) = DG x w0 := by
  unfold projRel0 wcat DG
  exact fused_group Cert.ReferenceIdeal.dot_S50000x128_S128x128_S50000x128_1_0_0_1_n_n rfl rfl rfl rfl rfl rfl x
    ![w0, w1, w2, w3, rr] _ 0 (by omega) _ _ _ _

theorem projRel1_MM : projRel1 (MM x (wcat w0 w1 w2 w3 rr)) = DG x w1 := by
  unfold projRel1 wcat DG
  exact fused_group Cert.ReferenceIdeal.dot_S50000x128_S128x128_S50000x128_1_0_0_1_n_n rfl rfl rfl rfl rfl rfl x
    ![w0, w1, w2, w3, rr] _ 1 (by omega) _ _ _ _

theorem projRel2_MM : projRel2 (MM x (wcat w0 w1 w2 w3 rr)) = DG x w2 := by
  unfold projRel2 wcat DG
  exact fused_group Cert.ReferenceIdeal.dot_S50000x128_S128x128_S50000x128_1_0_0_1_n_n rfl rfl rfl rfl rfl rfl x
    ![w0, w1, w2, w3, rr] _ 2 (by omega) _ _ _ _

theorem projRel3_MM : projRel3 (MM x (wcat w0 w1 w2 w3 rr)) = DG x w3 := by
  unfold projRel3 wcat DG
  exact fused_group Cert.ReferenceIdeal.dot_S50000x128_S128x128_S50000x128_1_0_0_1_n_n rfl rfl rfl rfl rfl rfl x
    ![w0, w1, w2, w3, rr] _ 3 (by omega) _ _ _ _

/-- The two programs compute one function of the arguments. -/
theorem net_eq (x : T[S50000x128, .f32]) (ei : T[S2x800000, .i32]) (et : T[S800000, .i32])
    (w : T[S2x4x128x128, .f32]) (r : T[S2x128x128, .f32]) (b : T[S2x128, .f32]) :
    netK x ei et w r b = netR x ei et w r b := by
  have hh : hiddenK x ei et w r b = hid x ei et w r b := by
    unfold hiddenK hid fused1
    rw [projRoot_MM, projRel0_MM, projRel1_MM, projRel2_MM, projRel3_MM]
  unfold netK netR fused2
  rw [hh, projRoot_MM, projRel0_MM, projRel1_MM, projRel2_MM, projRel3_MM]

end Cert.Rgcn

end
-- ==== Proof.lean ====
/-
  The certificate of the two-layer relational graph convolution.

  The kernel's program lays a layer's four relation matrices and its root matrix side by side, multiplies the node
  features by that one 128 × 640 matrix in a launch over 25 row blocks, cuts the five 128-column groups back out, and
  runs the per-relation mean aggregation on them; the reference multiplies by the five matrices one at a time and runs the
  same aggregation.  Over the extended reals a column group of the one product is the corresponding single product,
  term by term, so both programs return one function of the arguments (no finiteness is needed for the equality).

  Frames: each launch's body loads its two blocks, stores their product into the output block and touches nothing else;
  @main is seven items — host operations, a launch, three stretches of host operations, a launch, host operations — and
  no item writes an argument's buffer.  The reference is host operations only.
  The idealization rewrote nothing, so its preservation claim is trivial.
-/
import proofs.«174295_j50938312130617_1_alg».proof.Defs
import proofs.«174295_j50938312130617_1_alg».proof.Proof.Gen.Kernel
import proofs.«174295_j50938312130617_1_alg».proof.Proof.Gen.KernelIdeal
import proofs.«174295_j50938312130617_1_alg».proof.Proof.Gen.ReferenceIdeal
import proofs.«174295_j50938312130617_1_alg».proof.Proof.Gen.Pre_finite_inputs
import proofs.«174295_j50938312130617_1_alg».proof.Proof.BodyI
import proofs.«174295_j50938312130617_1_alg».proof.Proof.BodyB
import proofs.«174295_j50938312130617_1_alg».proof.Proof.RunI
import proofs.«174295_j50938312130617_1_alg».proof.Proof.RunB
import proofs.«174295_j50938312130617_1_alg».proof.Proof.ArgsI
import proofs.«174295_j50938312130617_1_alg».proof.Proof.ArgsB
import proofs.«174295_j50938312130617_1_alg».proof.Proof.RefFrame
import proofs.«174295_j50938312130617_1_alg».proof.Proof.Bridge
import Idealize.ShloMosaic.Adequacy
import Idealize.ShloMosaic.Init

set_option maxRecDepth 16384

noncomputable section

namespace Cert.Proof

open Idealize.ShloMosaic Idealize.SL.Sem

/-- The word-level program runs to the end, faults nowhere, and its six arguments end as launched. -/
theorem frame_k : Cert.frame_Kernel := fun m ρ _ =>
  (θ_run Cert.Kernel.defs _ _).mono (fun r h c => ⟨(h c _ (Cert.Kernel.Hand.mem_uc Cert.Kernel.main_arg0 (by decide))).trans (Cert.Kernel.Hand.W7_main_arg0 m ρ c),
      (h c _ (Cert.Kernel.Hand.mem_uc Cert.Kernel.main_arg1 (by decide))).trans (Cert.Kernel.Hand.W7_main_arg1 m ρ c),
      (h c _ (Cert.Kernel.Hand.mem_uc Cert.Kernel.main_arg2 (by decide))).trans (Cert.Kernel.Hand.W7_main_arg2 m ρ c),
      (h c _ (Cert.Kernel.Hand.mem_uc Cert.Kernel.main_arg3 (by decide))).trans (Cert.Kernel.Hand.W7_main_arg3 m ρ c),
      (h c _ (Cert.Kernel.Hand.mem_uc Cert.Kernel.main_arg4 (by decide))).trans (Cert.Kernel.Hand.W7_main_arg4 m ρ c),
      (h c _ (Cert.Kernel.Hand.mem_uc Cert.Kernel.main_arg5 (by decide))).trans (Cert.Kernel.Hand.W7_main_arg5 m ρ c)⟩)
    (Cert.Kernel.Hand.run_main (fun V c => Cert.Kernel.Hand.body_obligation0 V c) (fun V c => Cert.Kernel.Hand.body_obligation1 V c) m ρ)

/-- The same for the idealized program. -/
theorem frame_ki : Cert.frame_KernelIdeal := fun m ρ _ =>
  (θ_run Cert.KernelIdeal.defs _ _).mono (fun r h c => ⟨(h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c)⟩)
    (Cert.KernelIdeal.Hand.run_main (fun V c => Cert.KernelIdeal.Hand.body_obligation0 V c) (fun V c => Cert.KernelIdeal.Hand.body_obligation1 V c) m ρ)

/-- Over the extended reals both programs end with their result at one function of the arguments. -/
theorem algebraic : Cert.algebraic_KernelIdeal_ReferenceIdeal := by
  intro m ρ m' ρ' _ hagree
  refine ⟨fun c => Cert.KernelIdeal.Hand.netK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)), ?_, ?_⟩
  · exact (θ_run Cert.KernelIdeal.defs _ _).mono (fun r h c => ⟨(h c _ (Cert.KernelIdeal.Hand.mem_uc Cert.KernelIdeal.main_v264 (by decide))).trans (Cert.KernelIdeal.Hand.kernel_value m ρ c),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c)⟩)
      (Cert.KernelIdeal.Hand.run_main (fun V c => Cert.KernelIdeal.Hand.body_obligation0 V c) (fun V c => Cert.KernelIdeal.Hand.body_obligation1 V c) m ρ)
  · refine (θ_run Cert.ReferenceIdeal.defs _ _).mono (fun _ h c => ⟨(h c).1.trans ?_, (h c).2⟩)
      (Cert.ReferenceIdeal.Value.run (F := Ideal) m' ρ')
    rw [Cert.Rgcn.ref_term, (hagree c).1, (hagree c).2.1, (hagree c).2.2.1, (hagree c).2.2.2.1, (hagree c).2.2.2.2.1, (hagree c).2.2.2.2.2]
    exact (Cert.Rgcn.net_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
